-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1024x2048 : Shape := ⟨2, ![1024, 2048]⟩
abbrev S1024x1 : Shape := ⟨2, ![1024, 1]⟩
abbrev S1x1024 : Shape := ⟨2, ![1, 1024]⟩
abbrev S2048x1024 : Shape := ⟨2, ![2048, 1024]⟩
abbrev S1024x1024 : Shape := ⟨2, ![1024, 1024]⟩
abbrev S1024 : Shape := ⟨1, ![1024]⟩

abbrev nBuf : Space → Nat
  | .hbm => 34
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096x1, .f32⟩
  | .hbm, ⟨9, _⟩ => ⟨S1x4096, .f32⟩
  | .hbm, ⟨10, _⟩ => ⟨S4096x1, .i32⟩
  | .hbm, ⟨11, _⟩ => ⟨S1x4096, .i32⟩
  | .hbm, ⟨12, _⟩ => ⟨S4096x2048, .bf16⟩
  | .hbm, ⟨13, _⟩ => ⟨S4096x1, .f32⟩
  | .hbm, ⟨14, _⟩ => ⟨S4096x1, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096, .i1⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v42 : BitVec 1 := Scalar.cmpi .eq arg1 c3_i32
  let v43 : BitVec 32 := Scalar.extui v42
  let c0_i32_24 : BitVec 32 := 0#32
  let v44 : BitVec 1 := Scalar.cmpi .ne v43 c0_i32_24
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  reducesTo_S4096x2048_S4096_d1 : S4096x2048.ReducesTo [1] S4096
  h_S_ : 0 < S_.numel
  bcast_S_S4096 : S_.BroadcastsInDim S4096 (![] : Fin 0 → Fin S4096.rank)
  shapeCasts_S4096_S4096x1 : S4096.ShapeCasts S4096x1
  shapeCasts_S4096_S1x4096 : S4096.ShapeCasts S1x4096
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  transposes_S1024x2048_p1_0_S2048x1024 : S1024x2048.Transposes [1, 0] S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  shapeCasts_S4096x1_S4096 : S4096x1.ShapeCasts S4096
  reducesTo_S4096_S_d0 : S4096.ReducesTo [0] S_
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x2048.size a
  hwx0_1 : ∀ i : grid0.Coords, EltTy.bits .bf16 = 32 ∨ (Rect.block (s := S4096x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .i32 = 32 ∨ (Rect.block (s := S4096x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .i32 = 32 ∨ (Rect.block (s := S1x4096) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .f32 = 32 ∨ (Rect.block (s := S4096x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S4096x1.size a
  hwx0_7 : ∀ i : grid0.Coords, EltTy.bits .f32 = 32 ∨ (Rect.block (s := S4096x1) S1024x1.size (cc0_transform_7 i) (hinb0_7 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v8) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2048x4096 : Shape := ⟨2, ![2048, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S2048x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x1, .i32⟩
  | .hbm, ⟨22, _⟩ => ⟨S1x4096, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .i1⟩
  | .hbm, ⟨48, _⟩ => ⟨S4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call1_v0 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_call2_v0 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_cst_11 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x2048_S2048x4096_1_0 : S4096x2048.Transposes [1, 0] S2048x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.K.Runs.lean ====
/- What the three runs of the triplet kernel's body share: the valuation at the region's entry, @main around the
   region, the windows' blocks, the body's two branch conditions in closed form over the grid, where the two output
   windows are idle, and the names of the staging and scratch memrefs. -/
import proofs.«148254_j88089779241009_2_alg».proof.Proof.Gen.Kernel.Launch
import proofs.«148254_j88089779241009_2_alg».proof.Proof.Gen.Kernel.Skeleton
import proofs.«148254_j88089779241009_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the eleven host
    operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main around the region: the host lines before it, the region, the host lines after it; it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub
    hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved since the last fetch), for any proof data whose array is the entry valuation's and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, the
    block index has not moved since the last fetch), for any proof data whose array is the entry valuation's and whose
    body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, the
    block index has not moved since the last fetch), for any proof data whose array is the entry valuation's and whose
    body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (unfetched, the
    block index has not moved since the last fetch), for any proof data whose array is the entry valuation's and whose
    body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (unfetched, the
    block index has not moved since the last fetch), for any proof data whose array is the entry valuation's and whose
    body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (unfetched, the
    block index has not moved since the last fetch), for any proof data whose array is the entry valuation's and whose
    body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first conditional (the second grid coordinate is 0), as the scalar chain computes it. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second conditional (the second grid coordinate is 3). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Case A (first conditional taken, second not): output 6 is idle and not written back. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
/-- Case B (neither conditional taken): output 6 is idle and not written back. -/
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
/-- Case C (second conditional taken, first not): output 6 is live, the case stores into it. -/
theorem liveAt0_6_C : ∀ t : Fin cfg0.N, ¬cond0_0 (grid0.coords t) → cond0_1 (grid0.coords t) → cfg0.idle 6 (grid0.coords t) = false := by decide +kernel
/-- Case A (first conditional taken, second not): output 7 is idle and not written back. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
/-- Case B (neither conditional taken): output 7 is idle and not written back. -/
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
/-- Case C (second conditional taken, first not): output 7 is live, the case stores into it. -/
theorem liveAt0_7_C : ∀ t : Fin cfg0.N, ¬cond0_0 (grid0.coords t) → cond0_1 (grid0.coords t) → cfg0.idle 7 (grid0.coords t) = false := by decide +kernel

/-! ## The staging and scratch memrefs -/

/-- One staging buffer of each output window, through which its contents are stated (the choice does not matter). -/
abbrev VO0_6 : View sig .tc .vmem S1024x1 .f32 := (Memref.whole cc0_stg6_0 : Memref sig .tc .vmem S1024x1 .f32).view
abbrev VO0_7 : View sig .tc .vmem S1024x1 .f32 := (Memref.whole cc0_stg7_0 : Memref sig .tc .vmem S1024x1 .f32).view
/-- Each window's current staging memref at point `t`, spelled as the pipeline passes it, and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
/-- The two scratch operands: whole scoped buffers of the kernel's own, passed beside the windows; the first carries the
    running minimum, the second the running maximum. -/
abbrev scM0_0 : Memref sig .tc .vmem S1024x1 .f32 := Memref.whole cc0_scratch0
abbrev scM0_1 : Memref sig .tc .vmem S1024x1 .f32 := Memref.whole cc0_scratch1
/-- The scratch operands as views: what they hold is stated through these. -/
abbrev VS0_0 : View sig .tc .vmem S1024x1 .f32 := scM0_0.view
abbrev VS0_1 : View sig .tc .vmem S1024x1 .f32 := scM0_1.view

/-- The class invariant with the scratch operands as memrefs owned at some contents: what the body obligation hands the
    run at a group's first point and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.GenH

end
-- ==== Proof.K.RunA.lean ====
/- The whole-body run of the triplet kernel in case A of its two conditionals. -/
import proofs.«148254_j88089779241009_2_alg».proof.Proof.K.Runs

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- What the body's stores leave in the two outputs' staging memrefs and in the two scratch buffers, as pieces (last
    first), IN CASE A (first conditional taken, second not: the points ≡ 0 mod 4). Both scratch buffers arrive at any contents and are stored whole before they are read; the two outputs are handed back untouched. With the proof that on whole memrefs, the six inputs' at their
    contents, the body runs to a continuation holding the inputs' as they were and each stored buffer with its pieces
    written. The pieces are found by the run itself. -/
noncomputable def kernelRun0_A (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (xi6 : Vec F S1024x1 .f32) (xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.GenH

end
-- ==== Proof.K.RunB.lean ====
/- The whole-body run of the triplet kernel in case B of its two conditionals. -/
import proofs.«148254_j88089779241009_2_alg».proof.Proof.K.RunA

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- What the body's stores leave in the two outputs' staging memrefs and in the two scratch buffers, as pieces (last
    first), IN CASE B (neither conditional taken: the points ≡ 1, 2 mod 4). Both scratch buffers arrive at what the point before left; the two outputs are handed back untouched. With the proof that on whole memrefs, the six inputs' at their
    contents, the body runs to a continuation holding the inputs' as they were and each stored buffer with its pieces
    written. The pieces are found by the run itself. -/
noncomputable def kernelRun0_B (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (xi6 : Vec F S1024x1 .f32) (xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.GenH

end
-- ==== Proof.K.RunC.lean ====
/- The whole-body run of the triplet kernel in case C of its two conditionals. -/
import proofs.«148254_j88089779241009_2_alg».proof.Proof.K.RunB

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- What the body's stores leave in the two outputs' staging memrefs and in the two scratch buffers, as pieces (last
    first), IN CASE C (second conditional taken, first not: the points ≡ 3 mod 4). Both scratch buffers arrive at what the point before left; both outputs are stored whole. With the proof that on whole memrefs, the six inputs' at their
    contents, the body runs to a continuation holding the inputs' as they were and each stored buffer with its pieces
    written. The pieces are found by the run itself. -/
noncomputable def kernelRun0_C (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.Kernel.GenH

end
-- ==== Proof.K.BodyDefs.lean ====
/- The proof data of the triplet kernel's pipeline and its body obligation: what the two outputs' staging buffers and
   the two scratch buffers hold after each of the three cases of the body (the pieces the runs found, read back), what
   they hold point by point (by recursion on the point: the running minimum and maximum are carried from the point
   before within a group of four, reset at a group's first point), the invariant carrying both scratch buffers, and
   the obligation itself, a case split on the point's position in its group. -/
import proofs.«148254_j88089779241009_2_alg».proof.Proof.K.RunC

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 6 (the window is idle there and not written back): a placeholder that nothing
    consults. -/
def out0_A_6 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) : Vec F S1024x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 x0 x1 x2 x3 x4 x5).1)

/-- Case A stores nothing into output 7 (the window is idle there and not written back): a placeholder that nothing
    consults. -/
def out0_A_7 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) : Vec F S1024x1 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 x0 x1 x2 x3 x4 x5).2.1)

/-- Case A's pieces for scratch 0 cover it (each store is of the whole buffer). -/
theorem scover0_A_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.1 S1024x1.size (by sl_kernel_rfl) y

/-- What case A leaves in scratch 0: its pieces read back over junk. -/
def sout0_A_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5).2.2.1)

/-- Case A's pieces for scratch 1 cover it (each store is of the whole buffer). -/
theorem scover0_A_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.2.1 S1024x1.size (by sl_kernel_rfl) y

/-- What case A leaves in scratch 1: its pieces read back over junk. -/
def sout0_A_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).2.2.2.1)

/-- Case B stores nothing into output 6 (the window is idle there and not written back): a placeholder that nothing
    consults. -/
def out0_B_6 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1)

/-- Case B stores nothing into output 7 (the window is idle there and not written back): a placeholder that nothing
    consults. -/
def out0_B_7 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1)

/-- Case B's pieces for scratch 0 cover it (each store is of the whole buffer). -/
theorem scover0_B_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.1 S1024x1.size (by sl_kernel_rfl) y

/-- What case B leaves in scratch 0: its pieces read back over junk. -/
def sout0_B_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case B's pieces for scratch 1 cover it (each store is of the whole buffer). -/
theorem scover0_B_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S1024x1.size (by sl_kernel_rfl) y

/-- What case B leaves in scratch 1: its pieces read back over junk. -/
def sout0_B_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's pieces for output 6 tile its block, so they cover it. -/
theorem cover0_C_6 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1 S1024x1.size (by sl_kernel_rfl) y

/-- What case C leaves in output 6's staging buffer: its pieces read back over junk. -/
def out0_C_6 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1)

/-- Case C's pieces for output 7 tile its block, so they cover it. -/
theorem cover0_C_7 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1 S1024x1.size (by sl_kernel_rfl) y

/-- What case C leaves in output 7's staging buffer: its pieces read back over junk. -/
def out0_C_7 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-- Case C's pieces for scratch 0 cover it (each store is of the whole buffer). -/
theorem scover0_C_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S1024x1.size (by sl_kernel_rfl) y

/-- What case C leaves in scratch 0: its pieces read back over junk. -/
def sout0_C_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for scratch 1 cover it (each store is of the whole buffer). -/
theorem scover0_C_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S1024x1.size (by sl_kernel_rfl) y

/-- What case C leaves in scratch 1: its pieces read back over junk. -/
def sout0_C_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-! ## What the outputs and the scratch buffers hold after each point -/

/-- THE ACCUMULATION. What the two outputs' staging buffers and the two scratch buffers hold after the body at position
    `n` (a tuple: output 6, output 7, scratch 0, scratch 1): the case the closed forms select at `n`, run at the
    point's memrefs and input blocks, the scratch buffers taken at what the point before left in them (cases B and C; case A
    stores them whole before reading them). -/
def outsAt0 (c : Dev nD) : (n : ℕ) → n < cfg0.N → Vec F S1024x1 .f32 × Vec F S1024x1 .f32 × Vec F S1024x1 .f32 × Vec F S1024x1 .f32
  | 0, hn =>
      (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
         out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
         sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
         sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 4 = 0 then
      if h1 : (n + 1) % 4 = 3 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩),
         out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩),
         sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 4 = 3 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
         out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
         sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
         out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
         sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 4 = 0) (h1 : ¬t.val % 4 = 3) :
    outsAt0 m c t.val t.isLt =
      (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
         out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
         sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
         sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left in the scratch buffers. -/
theorem outsAt0_B (c : Dev nD) (t : Fin cfg0.N) (h0 : ¬t.val % 4 = 0) (h1 : ¬t.val % 4 = 3) :
    outsAt0 m c t.val t.isLt =
      (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
         out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
         sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
         sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left in the scratch buffers. -/
theorem outsAt0_C (c : Dev nD) (t : Fin cfg0.N) (h0 : ¬t.val % 4 = 0) (h1 : t.val % 4 = 3) :
    outsAt0 m c t.val t.isLt =
      (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
         out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
         sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
         sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (both scratch buffers at anything, the
    generator register at some state); afterwards both scratch buffers at what the point before left in them and the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): both scratch buffers at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first: both scratch buffers at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them; after the body at point `t`
    each input's buffer at its block and the two outputs' at `outsAt0`'s first two components; the invariant `PhiS`;
    nothing owed. Windows 0 and 1 read one array: each holds half of it; every other window holds its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q := fun w => match w with
    | ⟨0, _⟩ => fullShare.left
    | ⟨1, _⟩ => fullShare.right
    | _ => fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

end Cert.Kernel.GenH

end
-- ==== Proof.K.Body.lean ====
/- The body obligation of the triplet kernel's pipeline: at every point the body, called on the current staging
   memrefs and the two scratch buffers, runs from the proof data's invariant before the point to the invariant after it,
   by a case split on the point's position in its group of four and that case's whole-body run. -/
import proofs.«148254_j88089779241009_2_alg».proof.Proof.K.BodyDefs

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 8000000 in
/-- The body at any point: the inputs' memrefs hold their blocks; the closed forms say which case the point is in; the
    invariant hands the body both scratch buffers at what the point before left (at anything at the very first point),
    and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [outsAt0_A m c t h0 h1]
      unfold sout0_A_0 sout0_A_1; (try dsimp only)
      by_cases hz : t.val = 0
      ·
        rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [outsAt0_C m c t h0 h1]
      unfold out0_C_6 out0_C_7 sout0_C_0 sout0_C_1; (try dsimp only)
      by_cases hz : t.val = 0
      · exfalso; omega
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, ⟨%e6, H6⟩, ⟨%e7, H7⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B m c t h0 h1]
      unfold sout0_B_0 sout0_B_1; (try dsimp only)
      by_cases hz : t.val = 0
      · exfalso; omega
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.GenH

end
-- ==== Proof.K.Split.lean ====
/- How the buffers behind the kernel's eight windows are dealt to the windows. Seven distinct buffers stand behind the
   eight arrays: the bf16 copy of the data matrix is read through two windows (a row block for the queries, a row block
   for the keys), each of which holds one half of that buffer's share; every other window holds its own buffer whole. -/
import proofs.«148254_j88089779241009_2_alg».proof.Proof.K.Runs

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind the eight windows' arrays. -/
theorem arrImage : Finset.univ.image (Pipeline.arrRef spec0)
    = ({main_v8, main_v4, main_v5, main_v6, main_v7, main_v9_0, main_v9_1} : Finset (Ref sig .tc)) := by decide

/-- Those buffers, each whole at the contents `X`, one by one. -/
theorem arrBufs0_eq (c : Dev nD) (X : (b : Ref sig .tc) → Buf (Elt F) ((c : Thread nD τ).loc b)) :
    (Pipeline.arrBufs spec0 c X : sProp 𝕄)
      = iprop((((c : Thread nD τ).loc main_v8) ↦{fullShare} X main_v8) ∗ (((c : Thread nD τ).loc main_v4) ↦{fullShare} X main_v4)
          ∗ (((c : Thread nD τ).loc main_v5) ↦{fullShare} X main_v5) ∗ (((c : Thread nD τ).loc main_v6) ↦{fullShare} X main_v6)
          ∗ (((c : Thread nD τ).loc main_v7) ↦{fullShare} X main_v7) ∗ (((c : Thread nD τ).loc main_v9_0) ↦{fullShare} X main_v9_0)
          ∗ (((c : Thread nD τ).loc main_v9_1) ↦{fullShare} X main_v9_1)) := by
  unfold Pipeline.arrBufs
  rw [arrImage, bigSep_insert (by decide), bigSep_insert (by decide), bigSep_insert (by decide), bigSep_insert (by decide),
    bigSep_insert (by decide), bigSep_insert (by decide), bigSep_singleton]
  rfl

/-- The windows' arrays at contents read off one valuation `X` of the buffers, window by window: the two windows on the
    shared buffer at its two halves, the others whole. -/
theorem arrays0_eq (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare) (hq4 : dat.q 4 = fullShare) (hq5 : dat.q 5 = fullShare)
    (X : (b : Ref sig .tc) → Buf (Elt F) ((c : Thread nD τ).loc b)) :
    (dat.arrays (fun w => X (Pipeline.arrRef spec0 w)) : sProp 𝕄)
      = iprop((((c : Thread nD τ).loc main_v8) ↦{fullShare.left} X main_v8) ∗ (((c : Thread nD τ).loc main_v8) ↦{fullShare.right} X main_v8)
          ∗ (((c : Thread nD τ).loc main_v4) ↦{fullShare} X main_v4)
          ∗ (((c : Thread nD τ).loc main_v5) ↦{fullShare} X main_v5) ∗ (((c : Thread nD τ).loc main_v6) ↦{fullShare} X main_v6)
          ∗ (((c : Thread nD τ).loc main_v7) ↦{fullShare} X main_v7) ∗ (((c : Thread nD τ).loc main_v9_0) ↦{fullShare} X main_v9_0)
          ∗ (((c : Thread nD τ).loc main_v9_1) ↦{fullShare} X main_v9_1)) := by
  unfold Dat.arrays
  rw [bigSep_W0]
  have e0 : dat.share 0 = fullShare.left := by unfold Dat.share; rw [hq0]; rfl
  have e1 : dat.share 1 = fullShare.right := by unfold Dat.share; rw [hq1]; rfl
  have e2 : dat.share 2 = fullShare := by unfold Dat.share; rw [hq2]; rfl
  have e3 : dat.share 3 = fullShare := by unfold Dat.share; rw [hq3]; rfl
  have e4 : dat.share 4 = fullShare := by unfold Dat.share; rw [hq4]; rfl
  have e5 : dat.share 5 = fullShare := by unfold Dat.share; rw [hq5]; rfl
  have e6 : dat.share 6 = fullShare := rfl
  have e7 : dat.share 7 = fullShare := rfl
  rw [e0, e1, e2, e3, e4, e5, e6, e7]
  simp only [(arr_whole0 0).set_eq_univ, (arr_whole0 1).set_eq_univ, (arr_whole0 2).set_eq_univ,
    (arr_whole0 3).set_eq_univ, (arr_whole0 4).set_eq_univ, (arr_whole0 5).set_eq_univ, (arr_whole0 6).set_eq_univ, (arr_whole0 7).set_eq_univ]

/-- Dealing the buffers to the windows: the shared buffer is split into its two halves. -/
theorem arrBufs_to_arrays (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare) (hq4 : dat.q 4 = fullShare) (hq5 : dat.q 5 = fullShare)
    (X : (b : Ref sig .tc) → Buf (Elt F) ((c : Thread nD τ).loc b)) :
    (Pipeline.arrBufs spec0 c X : sProp 𝕄) ⊢ dat.arrays (fun w => X (Pipeline.arrRef spec0 w)) := by
  rw [arrBufs0_eq, arrays0_eq c dat hq0 hq1 hq2 hq3 hq4 hq5]
  iintro ⟨H8, H4, H5, H6, H7, H90, H91⟩
  ihave H8 := (pointsTo_share (PosShare.mem_left_op_right fullShare)).1 $$ H8
  icases H8 with ⟨H8a, H8b⟩
  isplitl [H8a]; · iexact H8a
  isplitl [H8b]; · iexact H8b
  isplitl [H4]; · iexact H4
  isplitl [H5]; · iexact H5
  isplitl [H6]; · iexact H6
  isplitl [H7]; · iexact H7
  isplitl [H90]; · iexact H90
  iexact H91

/-- Gathering the windows' shares into the buffers again. -/
theorem arrays_to_arrBufs (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare) (hq4 : dat.q 4 = fullShare) (hq5 : dat.q 5 = fullShare)
    (X : (b : Ref sig .tc) → Buf (Elt F) ((c : Thread nD τ).loc b)) :
    dat.arrays (fun w => X (Pipeline.arrRef spec0 w)) ⊢ (Pipeline.arrBufs spec0 c X : sProp 𝕄) := by
  rw [arrBufs0_eq, arrays0_eq c dat hq0 hq1 hq2 hq3 hq4 hq5]
  iintro ⟨H8a, H8b, H4, H5, H6, H7, H90, H91⟩
  ihave H8 := (pointsTo_share (PosShare.mem_left_op_right fullShare)).2 $$ [H8a H8b]
  · isplitl [H8a] <;> iassumption
  isplitl [H8]; · iexact H8
  isplitl [H4]; · iexact H4
  isplitl [H5]; · iexact H5
  isplitl [H6]; · iexact H6
  isplitl [H7]; · iexact H7
  isplitl [H90]; · iexact H90
  iexact H91

end Cert.Kernel.GenH

end
-- ==== Proof.LibFrameSharedAround.lean ====
/-
  The frame run for a pipeline whose windows SHARE AN ARRAY, in an @main that goes on after the region.

  The pipeline library runs the host lines that follow a region from the region's exit with the windows' arrays held
  window by window, which presupposes that the arrays are pairwise distinct buffers. When one array is handed to the
  kernel through several input windows the exit state holds that buffer in several shares, one per window, and the lines
  after the region cannot be run against it as it stands. Nothing deep is in the way: the lines touch only the DISTINCT
  buffers behind the arrays and the buffers that bypass the region, and those are one separating conjunction whether or
  not two windows name the same buffer (`held_tailRefs_shared`). So the certificate says, besides how the buffers behind
  the arrays are dealt to the windows at the region's entry (`hsplit`), how the windows' shares are gathered again at
  its exit into those buffers, each whole at an exit valuation `VN` (`hjoin`), and dealt back once the lines have run
  (`hsplitN`); the lines write no array (`hkeep`), so the arrays end at the proof data's final contents and every
  bypassing buffer at the lines' result from the exit valuation.

  `θ_run_frame_around_track_shared` is the library's frame run around a region with a tracking invariant, the layout
  bundle replaced by its separate facts and the arrays' distinctness by those three entailments; its conclusion is the
  same `FramePost`, read at `StableHlo.after` of the lines from `VN`.
-/
import Idealize.ShloMosaic.Lib.Pipeline.FrameSuffix

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section TailShared

variable {Ix : Type} [DecidableEq Ix] {Name : Type} [DecidableEq Name] {U : Type} [URA U] {Lvl : Type}

local notation "𝕄" => MT nD τ sig Ix Val Name U Lvl

/-- The buffers a line after the region may touch, held at `Wv`, are the distinct buffers behind the windows' arrays
    and the bypassing buffers at `Wv` - whether or not two windows share an array. -/
theorem held_tailRefs_shared {gr : Nat} {W : Nat} (pre : Prefetch sig) (win : Fin W → WinSpec sig gr)
    (c : Dev nD) (Wv : Valuation τ sig Val) :
    (StableHlo.held (c.tc : Thread nD τ) (tailRefs sig pre win) Wv : sProp 𝕄)
      = iprop(arrBufs win c (fun b => Wv (Proc.devRef .tc b)) ∗ unscopedRestP pre win c (fun b => Wv (Proc.devRef .tc b))) := by
  classical
  have hdisj : Disjoint (Finset.univ.image (arrRef win)) (restRefsP sig pre win) :=
    Finset.disjoint_left.mpr fun b hb hr => (Finset.mem_sdiff.mp (Finset.mem_sdiff.mp hr).1).2 hb
  unfold StableHlo.held tailRefs arrBufs unscopedRestP
  rw [bigSep_map, bigSep_union hdisj]
  rfl

end TailShared

section FrameAroundShared

variable {Λ₀ : SL.Sem.Labels} {P : Type} [Fintype P] [DecidableEq P] [∀ e, Nonempty (Val e)]

local notation "𝕄" => MT nD τ sig Unit Val ℕ (UR sig nD τ) ℕ

set_option backward.isDefEq.respectTransparency.types false in
/-- THE FRAME RUN with a tracking invariant, for a pipeline whose windows may share arrays, in an @main that continues
    after the region with the host lines `opss`. -/
theorem θ_run_frame_around_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ) (howed : ∀ c t, (dats p c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfgs p).spec c (fun b => V₀ c (Proc.devRef .tc b)) : sProp 𝕄) ⊢ (dats p c).arrays ((dats p c).arrAt · 0))
    (VN : Dev nD → Valuation τ sig Val)
    (hVN : ∀ c, ∀ b ∈ restRefs sig (cfgs p).spec, VN c (Proc.devRef .tc b) = V₀ c (Proc.devRef .tc b))
    (hjoin : ∀ c, (dats p c).arrays ((dats p c).arrAt · (cfgs p).N) ⊢ (arrBufs (cfgs p).spec c (fun b => VN c (Proc.devRef .tc b)) : sProp 𝕄))
    (hsplitN : ∀ c, (arrBufs (cfgs p).spec c (fun b => VN c (Proc.devRef .tc b)) : sProp 𝕄) ⊢ (dats p c).arrays ((dats p c).arrAt · (cfgs p).N))
    (hin : ∀ c, ΦA (cfgs p).spec c ⊢ (dats p c).Φ 0)
    (hout : ∀ c, (dats p c).Φ (Fin.last (cfgs p).N) ⊢ ΦA (cfgs p).spec c) :
    θ_run (Pipeline.defs (fun q => Cfg.toPCfg (Val := Val) (cfgs q)) defs₀) (onTc main) (s₀ m g)
      (FramePost cfgs dats p (fun c b => StableHlo.after opss.flatten (VN c) (Proc.devRef .tc b))) := by
  classical
  exact θ_run_region_pf_tail (fun q => (cfgs q).toPCfg (Val := Val)) (fun q => (cfgs q).toPCfg_adm) dats () hinj p hw
    (OwnSemFacts.none (cfgs p).spec) (PreFacts.none _) emb₁ defs₀ 𝒱₀ m g main
    (fun _ => chain (opss.map StableHlo.seq)) hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (fun b => V₀ c (Proc.devRef .tc b)))
    (Z' := fun c => unscopedRest (Ix := Unit) (Name := ℕ) (U := UR sig nD τ) (Lvl := ℕ) (cfgs p).spec c
      (fun b => StableHlo.after opss.flatten (VN c) (Proc.devRef .tc b)))
    (hX := fun c => by
      rw [unscopedRestP_none]
      iintro ⟨HU, -, -, -, Hp, -⟩; imodintro
      isplitl [Hp]; · iexists _; iexact Hp
      iexact HU)
    (hin := fun c => (show _ ⊢ ΦA (cfgs p).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      have hW : (StableHlo.held (c.tc : Thread nD τ) (tailRefs sig Prefetch.none (cfgs p).spec) (VN c) : sProp 𝕄)
          = iprop(arrBufs (cfgs p).spec c (fun b => VN c (Proc.devRef .tc b))
              ∗ unscopedRest (cfgs p).spec c (fun b => V₀ c (Proc.devRef .tc b))) := by
        rw [held_tailRefs_shared, unscopedRestP_none]
        congr 1
        unfold unscopedRest
        exact bigSep_congr fun b hb => by dsimp only; rw [hVN c b hb]
      have hW' : (StableHlo.held (c.tc : Thread nD τ) (tailRefs sig Prefetch.none (cfgs p).spec) (StableHlo.after opss.flatten (VN c)) : sProp 𝕄)
          = iprop(arrBufs (cfgs p).spec c (fun b => VN c (Proc.devRef .tc b))
              ∗ unscopedRest (cfgs p).spec c (fun b => StableHlo.after opss.flatten (VN c) (Proc.devRef .tc b))) := by
        rw [held_tailRefs_shared, unscopedRestP_none]
        congr 1
        unfold arrBufs
        exact bigSep_congr fun b hb => by
          obtain ⟨w, -, rfl⟩ := Finset.mem_image.mp hb
          dsimp only
          rw [StableHlo.after_of_forall_not_mem _ _ fun op hop => ?_]
          obtain ⟨ops, hops, hop⟩ := List.mem_flatten.mp hop
          exact hkeep ops hops op hop w
      have step1 : iprop((iprop((dats p c).arrays ((dats p c).arrAt · (cfgs p).N)
              ∗ unscopedRest (cfgs p).spec c (fun b => StableHlo.after opss.flatten (VN c) (Proc.devRef .tc b))) -∗ Q' ⟨⟩)
            ∗ boundary (c.tc : Thread nD τ) ∗ (dats p c).arrays ((dats p c).arrAt · (cfgs p).N)
            ∗ unscopedRest (cfgs p).spec c (fun b => V₀ c (Proc.devRef .tc b)))
          ⊢ (iprop((iprop((dats p c).arrays ((dats p c).arrAt · (cfgs p).N)
              ∗ unscopedRest (cfgs p).spec c (fun b => StableHlo.after opss.flatten (VN c) (Proc.devRef .tc b))) -∗ Q' ⟨⟩)
            ∗ boundary (c.tc : Thread nD τ)
            ∗ StableHlo.held (c.tc : Thread nD τ) (tailRefs sig Prefetch.none (cfgs p).spec) (VN c)) : sProp 𝕄) := by
        rw [hW]
        iintro ⟨Hk, Hb, HA, HZ⟩
        isplitl [Hk]; · iexact Hk
        isplitl [Hb]; · iexact Hb
        isplitl [HA]
        · iapply (hjoin c); iexact HA
        · iexact HZ
      refine step1.trans ?_
      rw [← List.append_nil (opss.map StableHlo.seq)]
      iintro ⟨Hk, Hb⟩
      iapply (wp_seqs_then (fun q => (cfgs q).toPCfg (Val := Val)) defs₀ 𝒱₀ c (tailRefs sig Prefetch.none (cfgs p).spec) [] opss hsub hfresh (VN c)) $$ Hb
      iintro Hb
      rw [chain_nil, wp_pure, hW']
      imodintro
      iapply Hk
      icases Hb with ⟨-, HA, HZ⟩
      isplitl [HA]
      · iapply (hsplitN c); iexact HA
      · iexact HZ)
    (QY := fun c s => ∀ b ∈ restRefs sig (cfgs p).spec, s.mem ((c.tc : Thread nD τ).loc b) = StableHlo.after opss.flatten (VN c) (Proc.devRef .tc b))
    (hY := fun c s' => by
      iintro ⟨-, HU, HSI⟩
      unfold unscopedRest
      imodintro
      iapply (pointsTo_read_all (restRefs sig (cfgs p).spec) (fun b => (c.tc : Thread nD τ).loc b)
        (fun b => StableHlo.after opss.flatten (VN c) (Proc.devRef .tc b)) s')
      isplitl [HU] <;> iassumption)
    (hQ := fun s h c => ⟨(h c).1, (h c).2.2⟩)

end FrameAroundShared

end Pipeline

end Idealize.ShloMosaic
-- ==== Proof.K.Run.lean ====
/- The run of @main: the eleven host operations before the kernel, the kernel at its sixteen grid points, the nineteen
   host operations after it. Two input windows read one buffer, so the buffers behind the windows are dealt to the windows
   at the region's entry and gathered again at its exit; the host operations after the kernel read only the two result
   columns, which end at the proof data's final contents, and write none of the windows' arrays. -/
import proofs.«148254_j88089779241009_2_alg».proof.Proof.K.Body
import proofs.«148254_j88089779241009_2_alg».proof.Proof.K.Split
import proofs.«148254_j88089779241009_2_alg».proof.Proof.LibFrameSharedAround

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Classical in
/-- The buffers' contents at the region's exit: the two result columns at the proof data's final contents, every other
    buffer as the region found it. -/
def VN (c : Dev nD) : Valuation τ sig (Elt F) :=
  Function.update (Function.update (V0 m c) (Proc.devRef .tc main_v9_0) ((dats m 0 c).arrAt 6 cfg0.N))
    (Proc.devRef .tc main_v9_1) ((dats m 0 c).arrAt 7 cfg0.N)

theorem VN_v9_1 (c : Dev nD) : VN m c (Proc.devRef .tc main_v9_1) = (dats m 0 c).arrAt 7 cfg0.N := by
  unfold VN; exact Function.update_self ..

theorem VN_v9_0 (c : Dev nD) : VN m c (Proc.devRef .tc main_v9_0) = (dats m 0 c).arrAt 6 cfg0.N := by
  unfold VN
  rw [Function.update_of_ne (StableHlo.devRef_ne_of_ne (by decide))]
  exact Function.update_self ..

theorem VN_other (c : Dev nD) (b : Ref sig .tc) (h0 : b ≠ main_v9_0) (h1 : b ≠ main_v9_1) :
    VN m c (Proc.devRef .tc b) = V0 m c (Proc.devRef .tc b) := by
  unfold VN
  rw [Function.update_of_ne (StableHlo.devRef_ne_of_ne h1), Function.update_of_ne (StableHlo.devRef_ne_of_ne h0)]

/-- A buffer that bypasses the region is no window's array, so the exit valuation leaves it as the region found it. -/
theorem VN_rest (c : Dev nD) : ∀ b ∈ Pipeline.restRefs sig spec0, VN m c (Proc.devRef .tc b) = V0 m c (Proc.devRef .tc b) := by
  intro b hb
  have hn : b ∉ Finset.univ.image (Pipeline.arrRef spec0) := (Finset.mem_sdiff.mp hb).2
  refine VN_other m c b (fun e => hn ?_) (fun e => hn ?_)
  · rw [e]; exact Finset.mem_image.mpr ⟨6, Finset.mem_univ _, rfl⟩
  · rw [e]; exact Finset.mem_image.mpr ⟨7, Finset.mem_univ _, rfl⟩

/-- Every window's array ends at the exit valuation's contents of its buffer: an input's array is never written. -/
theorem arrAt_N_eq (c : Dev nD) : ∀ w : Fin cfg0.W, (dats m 0 c).arrAt w cfg0.N = VN m c (Proc.devRef .tc (Pipeline.arrRef spec0 w))
  | ⟨0, _⟩ => ((dats m 0 c).arrAt_in 0 rfl _).trans ((A_eq m c 0).trans (VN_other m c main_v8 (by decide) (by decide)).symm)
  | ⟨1, _⟩ => ((dats m 0 c).arrAt_in 1 rfl _).trans ((A_eq m c 1).trans (VN_other m c main_v8 (by decide) (by decide)).symm)
  | ⟨2, _⟩ => ((dats m 0 c).arrAt_in 2 rfl _).trans ((A_eq m c 2).trans (VN_other m c main_v4 (by decide) (by decide)).symm)
  | ⟨3, _⟩ => ((dats m 0 c).arrAt_in 3 rfl _).trans ((A_eq m c 3).trans (VN_other m c main_v5 (by decide) (by decide)).symm)
  | ⟨4, _⟩ => ((dats m 0 c).arrAt_in 4 rfl _).trans ((A_eq m c 4).trans (VN_other m c main_v6 (by decide) (by decide)).symm)
  | ⟨5, _⟩ => ((dats m 0 c).arrAt_in 5 rfl _).trans ((A_eq m c 5).trans (VN_other m c main_v7 (by decide) (by decide)).symm)
  | ⟨6, _⟩ => (VN_v9_0 m c).symm
  | ⟨7, _⟩ => (VN_v9_1 m c).symm

/-- The host operations after the kernel touch only unscoped TensorCore buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline (each writes only its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option backward.isDefEq.respectTransparency.types false in
/-- Every weakly fair execution of @main terminates; every window's array ends at the proof data's final contents and
    every other unscoped buffer at what the host operations after the kernel leave from the exit valuation. -/
theorem run_main : θ_run defs (onTc (τ := τ) (main (F := F))) (s₀ m ρ)
    (Pipeline.FramePost cfgs (dats m) 0 (fun c b => StableHlo.after ([hostOps1] : List (List (HloOp τ sig (Elt F)))).flatten (VN m c) (Proc.devRef .tc b))) :=
  Pipeline.θ_run_frame_around_track_shared cfgs (dats m) (0 : Fin 1) cellOf_inj winFacts₀0 block_pos0 arr_whole0 stage_whole0
    defs₀ Variants.none m ρ main
    (hbody := fun c => (body_obligation m c).loose) (howed := fun _ _ => rfl) (V₀ := V0 m) (opss := [hostOps1])
    (hsub := sfx_sub) (hfresh := sfx_fresh) (hkeep := sfx_keeps) (hmain := hmain m Variants.none)
    (hsplit := fun c => (arrBufs_to_arrays c (dats m 0 c) rfl rfl rfl rfl rfl rfl (V m c)).trans
      (Entails.of_eq (congrArg (dats m 0 c).arrays (funext fun w => (A_eq m c w).symm))))
    (VN := VN m) (hVN := VN_rest m)
    (hjoin := fun c => (Entails.of_eq (congrArg (dats m 0 c).arrays (funext (arrAt_N_eq m c)))).trans
      (arrays_to_arrBufs c (dats m 0 c) rfl rfl rfl rfl rfl rfl (fun b => VN m c (Proc.devRef .tc b))))
    (hsplitN := fun c => (arrBufs_to_arrays c (dats m 0 c) rfl rfl rfl rfl rfl rfl (fun b => VN m c (Proc.devRef .tc b))).trans
      (Entails.of_eq (congrArg (dats m 0 c).arrays (funext fun w => (arrAt_N_eq m c w).symm))))
    (hin := hin m) (hout := hout m)

end Cert.Kernel.GenH

end
-- ==== Proof.K.Frame.lean ====
/- The frame claim of the program: @main terminates and both argument arrays end as they began. The host operations
   before and after the kernel write neither argument (each writes only its own result buffer), and the kernel's region
   leaves every buffer that is no window's array as it found it; the arguments are no window's array. -/
import proofs.«148254_j88089779241009_2_alg».proof.Proof.K.Run

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The eleven host operations before the kernel write neither argument array. -/
theorem kept_pre_arg0 (W : Valuation τ sig (Elt F)) :
    StableHlo.after (List.flatten [hostOps0]) W (Proc.devRef .tc main_arg0) = W (Proc.devRef .tc main_arg0) := by
  refine StableHlo.after_of_forall_not_mem _ _ fun op hop => ?_
  simp only [List.flatten_cons, List.flatten_nil, List.append_nil, hostOps0, List.mem_cons, List.mem_nil_iff, or_false] at hop
  rcases hop with rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem kept_pre_arg1 (W : Valuation τ sig (Elt F)) :
    StableHlo.after (List.flatten [hostOps0]) W (Proc.devRef .tc main_arg1) = W (Proc.devRef .tc main_arg1) := by
  refine StableHlo.after_of_forall_not_mem _ _ fun op hop => ?_
  simp only [List.flatten_cons, List.flatten_nil, List.append_nil, hostOps0, List.mem_cons, List.mem_nil_iff, or_false] at hop
  rcases hop with rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The nineteen host operations after the kernel write neither argument array. -/
theorem kept_post_arg0 (W : Valuation τ sig (Elt F)) :
    StableHlo.after (List.flatten [hostOps1]) W (Proc.devRef .tc main_arg0) = W (Proc.devRef .tc main_arg0) := by
  refine StableHlo.after_of_forall_not_mem _ _ fun op hop => ?_
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem kept_post_arg1 (W : Valuation τ sig (Elt F)) :
    StableHlo.after (List.flatten [hostOps1]) W (Proc.devRef .tc main_arg1) = W (Proc.devRef .tc main_arg1) := by
  refine StableHlo.after_of_forall_not_mem _ _ fun op hop => ?_
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The argument arrays are unscoped and no window's array: they bypass the region. -/
theorem mem_arg0 : main_arg0 ∈ Pipeline.restRefs sig spec0 := Pipeline.mem_restRefs_of _ rfl (by decide)
theorem mem_arg1 : main_arg1 ∈ Pipeline.restRefs sig spec0 := Pipeline.mem_restRefs_of _ rfl (by decide)

/-- THE FRAME: from any memory with zero counters every weakly fair execution of @main on the TensorCores terminates,
    and both argument arrays end at their initial contents: a bypassing buffer ends at what the later host operations
    leave of the exit valuation, which at an argument is the entry valuation's, which is the initial memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 mem_arg0).trans ((kept_post_arg0 (VN m c)).trans
        ((VN_other m c main_arg0 (by decide) (by decide)).trans (kept_pre_arg0 _))),
     ((h c).2 main_arg1 mem_arg1).trans ((kept_post_arg1 (VN m c)).trans
        ((VN_other m c main_arg1 (by decide) (by decide)).trans (kept_pre_arg1 _)))⟩) (run_main m ρ)

end Cert.Kernel.GenH

end
-- ==== Proof.KI.Runs.lean ====
/- What the three runs of the triplet kernel's body share: the valuation at the region's entry, @main around the
   region, the windows' blocks, the body's two branch conditions in closed form over the grid, where the two output
   windows are idle, and the names of the staging and scratch memrefs. -/
import proofs.«148254_j88089779241009_2_alg».proof.Proof.Gen.KernelIdeal.Launch
import proofs.«148254_j88089779241009_2_alg».proof.Proof.Gen.KernelIdeal.Skeleton
import proofs.«148254_j88089779241009_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the eleven host
    operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main around the region: the host lines before it, the region, the host lines after it; it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub
    hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved since the last fetch), for any proof data whose array is the entry valuation's and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, the
    block index has not moved since the last fetch), for any proof data whose array is the entry valuation's and whose
    body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, the
    block index has not moved since the last fetch), for any proof data whose array is the entry valuation's and whose
    body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (unfetched, the
    block index has not moved since the last fetch), for any proof data whose array is the entry valuation's and whose
    body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (unfetched, the
    block index has not moved since the last fetch), for any proof data whose array is the entry valuation's and whose
    body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (unfetched, the
    block index has not moved since the last fetch), for any proof data whose array is the entry valuation's and whose
    body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first conditional (the second grid coordinate is 0), as the scalar chain computes it. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second conditional (the second grid coordinate is 3). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Case A (first conditional taken, second not): output 6 is idle and not written back. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
/-- Case B (neither conditional taken): output 6 is idle and not written back. -/
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
/-- Case C (second conditional taken, first not): output 6 is live, the case stores into it. -/
theorem liveAt0_6_C : ∀ t : Fin cfg0.N, ¬cond0_0 (grid0.coords t) → cond0_1 (grid0.coords t) → cfg0.idle 6 (grid0.coords t) = false := by decide +kernel
/-- Case A (first conditional taken, second not): output 7 is idle and not written back. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
/-- Case B (neither conditional taken): output 7 is idle and not written back. -/
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
/-- Case C (second conditional taken, first not): output 7 is live, the case stores into it. -/
theorem liveAt0_7_C : ∀ t : Fin cfg0.N, ¬cond0_0 (grid0.coords t) → cond0_1 (grid0.coords t) → cfg0.idle 7 (grid0.coords t) = false := by decide +kernel

/-! ## The staging and scratch memrefs -/

/-- One staging buffer of each output window, through which its contents are stated (the choice does not matter). -/
abbrev VO0_6 : View sig .tc .vmem S1024x1 .f32 := (Memref.whole cc0_stg6_0 : Memref sig .tc .vmem S1024x1 .f32).view
abbrev VO0_7 : View sig .tc .vmem S1024x1 .f32 := (Memref.whole cc0_stg7_0 : Memref sig .tc .vmem S1024x1 .f32).view
/-- Each window's current staging memref at point `t`, spelled as the pipeline passes it, and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
/-- The two scratch operands: whole scoped buffers of the kernel's own, passed beside the windows; the first carries the
    running minimum, the second the running maximum. -/
abbrev scM0_0 : Memref sig .tc .vmem S1024x1 .f32 := Memref.whole cc0_scratch0
abbrev scM0_1 : Memref sig .tc .vmem S1024x1 .f32 := Memref.whole cc0_scratch1
/-- The scratch operands as views: what they hold is stated through these. -/
abbrev VS0_0 : View sig .tc .vmem S1024x1 .f32 := scM0_0.view
abbrev VS0_1 : View sig .tc .vmem S1024x1 .f32 := scM0_1.view

/-- The class invariant with the scratch operands as memrefs owned at some contents: what the body obligation hands the
    run at a group's first point and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.GenH

end
-- ==== Proof.KI.RunA.lean ====
/- The whole-body run of the triplet kernel in case A of its two conditionals. -/
import proofs.«148254_j88089779241009_2_alg».proof.Proof.KI.Runs

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- What the body's stores leave in the two outputs' staging memrefs and in the two scratch buffers, as pieces (last
    first), IN CASE A (first conditional taken, second not: the points ≡ 0 mod 4). Both scratch buffers arrive at any contents and are stored whole before they are read; the two outputs are handed back untouched. With the proof that on whole memrefs, the six inputs' at their
    contents, the body runs to a continuation holding the inputs' as they were and each stored buffer with its pieces
    written. The pieces are found by the run itself. -/
noncomputable def kernelRun0_A (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (xi6 : Vec F S1024x1 .f32) (xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.GenH

end
-- ==== Proof.KI.RunB.lean ====
/- The whole-body run of the triplet kernel in case B of its two conditionals. -/
import proofs.«148254_j88089779241009_2_alg».proof.Proof.KI.RunA

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- What the body's stores leave in the two outputs' staging memrefs and in the two scratch buffers, as pieces (last
    first), IN CASE B (neither conditional taken: the points ≡ 1, 2 mod 4). Both scratch buffers arrive at what the point before left; the two outputs are handed back untouched. With the proof that on whole memrefs, the six inputs' at their
    contents, the body runs to a continuation holding the inputs' as they were and each stored buffer with its pieces
    written. The pieces are found by the run itself. -/
noncomputable def kernelRun0_B (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (xi6 : Vec F S1024x1 .f32) (xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.GenH

end
-- ==== Proof.KI.RunC.lean ====
/- The whole-body run of the triplet kernel in case C of its two conditionals. -/
import proofs.«148254_j88089779241009_2_alg».proof.Proof.KI.RunB

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- What the body's stores leave in the two outputs' staging memrefs and in the two scratch buffers, as pieces (last
    first), IN CASE C (second conditional taken, first not: the points ≡ 3 mod 4). Both scratch buffers arrive at what the point before left; both outputs are stored whole. With the proof that on whole memrefs, the six inputs' at their
    contents, the body runs to a continuation holding the inputs' as they were and each stored buffer with its pieces
    written. The pieces are found by the run itself. -/
noncomputable def kernelRun0_C (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.KernelIdeal.GenH

end
-- ==== Proof.KI.BodyDefs.lean ====
/- The proof data of the triplet kernel's pipeline and its body obligation: what the two outputs' staging buffers and
   the two scratch buffers hold after each of the three cases of the body (the pieces the runs found, read back), what
   they hold point by point (by recursion on the point: the running minimum and maximum are carried from the point
   before within a group of four, reset at a group's first point), the invariant carrying both scratch buffers, and
   the obligation itself, a case split on the point's position in its group. -/
import proofs.«148254_j88089779241009_2_alg».proof.Proof.KI.RunC

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 6 (the window is idle there and not written back): a placeholder that nothing
    consults. -/
def out0_A_6 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) : Vec F S1024x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 x0 x1 x2 x3 x4 x5).1)

/-- Case A stores nothing into output 7 (the window is idle there and not written back): a placeholder that nothing
    consults. -/
def out0_A_7 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) : Vec F S1024x1 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 x0 x1 x2 x3 x4 x5).2.1)

/-- Case A's pieces for scratch 0 cover it (each store is of the whole buffer). -/
theorem scover0_A_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.1 S1024x1.size (by sl_kernel_rfl) y

/-- What case A leaves in scratch 0: its pieces read back over junk. -/
def sout0_A_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5).2.2.1)

/-- Case A's pieces for scratch 1 cover it (each store is of the whole buffer). -/
theorem scover0_A_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.2.1 S1024x1.size (by sl_kernel_rfl) y

/-- What case A leaves in scratch 1: its pieces read back over junk. -/
def sout0_A_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).2.2.2.1)

/-- Case B stores nothing into output 6 (the window is idle there and not written back): a placeholder that nothing
    consults. -/
def out0_B_6 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1)

/-- Case B stores nothing into output 7 (the window is idle there and not written back): a placeholder that nothing
    consults. -/
def out0_B_7 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1)

/-- Case B's pieces for scratch 0 cover it (each store is of the whole buffer). -/
theorem scover0_B_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.1 S1024x1.size (by sl_kernel_rfl) y

/-- What case B leaves in scratch 0: its pieces read back over junk. -/
def sout0_B_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case B's pieces for scratch 1 cover it (each store is of the whole buffer). -/
theorem scover0_B_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S1024x1.size (by sl_kernel_rfl) y

/-- What case B leaves in scratch 1: its pieces read back over junk. -/
def sout0_B_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's pieces for output 6 tile its block, so they cover it. -/
theorem cover0_C_6 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1 S1024x1.size (by sl_kernel_rfl) y

/-- What case C leaves in output 6's staging buffer: its pieces read back over junk. -/
def out0_C_6 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1)

/-- Case C's pieces for output 7 tile its block, so they cover it. -/
theorem cover0_C_7 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1 S1024x1.size (by sl_kernel_rfl) y

/-- What case C leaves in output 7's staging buffer: its pieces read back over junk. -/
def out0_C_7 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-- Case C's pieces for scratch 0 cover it (each store is of the whole buffer). -/
theorem scover0_C_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S1024x1.size (by sl_kernel_rfl) y

/-- What case C leaves in scratch 0: its pieces read back over junk. -/
def sout0_C_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for scratch 1 cover it (each store is of the whole buffer). -/
theorem scover0_C_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S1024x1.size (by sl_kernel_rfl) y

/-- What case C leaves in scratch 1: its pieces read back over junk. -/
def sout0_C_1 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x2048 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-! ## What the outputs and the scratch buffers hold after each point -/

/-- THE ACCUMULATION. What the two outputs' staging buffers and the two scratch buffers hold after the body at position
    `n` (a tuple: output 6, output 7, scratch 0, scratch 1): the case the closed forms select at `n`, run at the
    point's memrefs and input blocks, the scratch buffers taken at what the point before left in them (cases B and C; case A
    stores them whole before reading them). -/
def outsAt0 (c : Dev nD) : (n : ℕ) → n < cfg0.N → Vec F S1024x1 .f32 × Vec F S1024x1 .f32 × Vec F S1024x1 .f32 × Vec F S1024x1 .f32
  | 0, hn =>
      (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
         out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
         sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
         sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 4 = 0 then
      if h1 : (n + 1) % 4 = 3 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩),
         out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩),
         sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 4 = 3 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
         out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
         sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
         out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
         sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 4 = 0) (h1 : ¬t.val % 4 = 3) :
    outsAt0 m c t.val t.isLt =
      (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
         out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
         sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
         sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left in the scratch buffers. -/
theorem outsAt0_B (c : Dev nD) (t : Fin cfg0.N) (h0 : ¬t.val % 4 = 0) (h1 : ¬t.val % 4 = 3) :
    outsAt0 m c t.val t.isLt =
      (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
         out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
         sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
         sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left in the scratch buffers. -/
theorem outsAt0_C (c : Dev nD) (t : Fin cfg0.N) (h0 : ¬t.val % 4 = 0) (h1 : t.val % 4 = 3) :
    outsAt0 m c t.val t.isLt =
      (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
         out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
         sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
         sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (both scratch buffers at anything, the
    generator register at some state); afterwards both scratch buffers at what the point before left in them and the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): both scratch buffers at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first: both scratch buffers at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them; after the body at point `t`
    each input's buffer at its block and the two outputs' at `outsAt0`'s first two components; the invariant `PhiS`;
    nothing owed. Windows 0 and 1 read one array: each holds half of it; every other window holds its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q := fun w => match w with
    | ⟨0, _⟩ => fullShare.left
    | ⟨1, _⟩ => fullShare.right
    | _ => fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

end Cert.KernelIdeal.GenH

end
-- ==== Proof.KI.Body.lean ====
/- The body obligation of the triplet kernel's pipeline: at every point the body, called on the current staging
   memrefs and the two scratch buffers, runs from the proof data's invariant before the point to the invariant after it,
   by a case split on the point's position in its group of four and that case's whole-body run. -/
import proofs.«148254_j88089779241009_2_alg».proof.Proof.KI.BodyDefs

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 8000000 in
/-- The body at any point: the inputs' memrefs hold their blocks; the closed forms say which case the point is in; the
    invariant hands the body both scratch buffers at what the point before left (at anything at the very first point),
    and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [outsAt0_A m c t h0 h1]
      unfold sout0_A_0 sout0_A_1; (try dsimp only)
      by_cases hz : t.val = 0
      ·
        rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [outsAt0_C m c t h0 h1]
      unfold out0_C_6 out0_C_7 sout0_C_0 sout0_C_1; (try dsimp only)
      by_cases hz : t.val = 0
      · exfalso; omega
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, ⟨%e6, H6⟩, ⟨%e7, H7⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B m c t h0 h1]
      unfold sout0_B_0 sout0_B_1; (try dsimp only)
      by_cases hz : t.val = 0
      · exfalso; omega
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.GenH

end
-- ==== Proof.KI.Split.lean ====
/- How the buffers behind the kernel's eight windows are dealt to the windows. Seven distinct buffers stand behind the
   eight arrays: the bf16 copy of the data matrix is read through two windows (a row block for the queries, a row block
   for the keys), each of which holds one half of that buffer's share; every other window holds its own buffer whole. -/
import proofs.«148254_j88089779241009_2_alg».proof.Proof.KI.Runs

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind the eight windows' arrays. -/
theorem arrImage : Finset.univ.image (Pipeline.arrRef spec0)
    = ({main_v8, main_v4, main_v5, main_v6, main_v7, main_v9_0, main_v9_1} : Finset (Ref sig .tc)) := by decide

/-- Those buffers, each whole at the contents `X`, one by one. -/
theorem arrBufs0_eq (c : Dev nD) (X : (b : Ref sig .tc) → Buf (Elt F) ((c : Thread nD τ).loc b)) :
    (Pipeline.arrBufs spec0 c X : sProp 𝕄)
      = iprop((((c : Thread nD τ).loc main_v8) ↦{fullShare} X main_v8) ∗ (((c : Thread nD τ).loc main_v4) ↦{fullShare} X main_v4)
          ∗ (((c : Thread nD τ).loc main_v5) ↦{fullShare} X main_v5) ∗ (((c : Thread nD τ).loc main_v6) ↦{fullShare} X main_v6)
          ∗ (((c : Thread nD τ).loc main_v7) ↦{fullShare} X main_v7) ∗ (((c : Thread nD τ).loc main_v9_0) ↦{fullShare} X main_v9_0)
          ∗ (((c : Thread nD τ).loc main_v9_1) ↦{fullShare} X main_v9_1)) := by
  unfold Pipeline.arrBufs
  rw [arrImage, bigSep_insert (by decide), bigSep_insert (by decide), bigSep_insert (by decide), bigSep_insert (by decide),
    bigSep_insert (by decide), bigSep_insert (by decide), bigSep_singleton]
  rfl

/-- The windows' arrays at contents read off one valuation `X` of the buffers, window by window: the two windows on the
    shared buffer at its two halves, the others whole. -/
theorem arrays0_eq (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare) (hq4 : dat.q 4 = fullShare) (hq5 : dat.q 5 = fullShare)
    (X : (b : Ref sig .tc) → Buf (Elt F) ((c : Thread nD τ).loc b)) :
    (dat.arrays (fun w => X (Pipeline.arrRef spec0 w)) : sProp 𝕄)
      = iprop((((c : Thread nD τ).loc main_v8) ↦{fullShare.left} X main_v8) ∗ (((c : Thread nD τ).loc main_v8) ↦{fullShare.right} X main_v8)
          ∗ (((c : Thread nD τ).loc main_v4) ↦{fullShare} X main_v4)
          ∗ (((c : Thread nD τ).loc main_v5) ↦{fullShare} X main_v5) ∗ (((c : Thread nD τ).loc main_v6) ↦{fullShare} X main_v6)
          ∗ (((c : Thread nD τ).loc main_v7) ↦{fullShare} X main_v7) ∗ (((c : Thread nD τ).loc main_v9_0) ↦{fullShare} X main_v9_0)
          ∗ (((c : Thread nD τ).loc main_v9_1) ↦{fullShare} X main_v9_1)) := by
  unfold Dat.arrays
  rw [bigSep_W0]
  have e0 : dat.share 0 = fullShare.left := by unfold Dat.share; rw [hq0]; rfl
  have e1 : dat.share 1 = fullShare.right := by unfold Dat.share; rw [hq1]; rfl
  have e2 : dat.share 2 = fullShare := by unfold Dat.share; rw [hq2]; rfl
  have e3 : dat.share 3 = fullShare := by unfold Dat.share; rw [hq3]; rfl
  have e4 : dat.share 4 = fullShare := by unfold Dat.share; rw [hq4]; rfl
  have e5 : dat.share 5 = fullShare := by unfold Dat.share; rw [hq5]; rfl
  have e6 : dat.share 6 = fullShare := rfl
  have e7 : dat.share 7 = fullShare := rfl
  rw [e0, e1, e2, e3, e4, e5, e6, e7]
  simp only [(arr_whole0 0).set_eq_univ, (arr_whole0 1).set_eq_univ, (arr_whole0 2).set_eq_univ,
    (arr_whole0 3).set_eq_univ, (arr_whole0 4).set_eq_univ, (arr_whole0 5).set_eq_univ, (arr_whole0 6).set_eq_univ, (arr_whole0 7).set_eq_univ]

/-- Dealing the buffers to the windows: the shared buffer is split into its two halves. -/
theorem arrBufs_to_arrays (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare) (hq4 : dat.q 4 = fullShare) (hq5 : dat.q 5 = fullShare)
    (X : (b : Ref sig .tc) → Buf (Elt F) ((c : Thread nD τ).loc b)) :
    (Pipeline.arrBufs spec0 c X : sProp 𝕄) ⊢ dat.arrays (fun w => X (Pipeline.arrRef spec0 w)) := by
  rw [arrBufs0_eq, arrays0_eq c dat hq0 hq1 hq2 hq3 hq4 hq5]
  iintro ⟨H8, H4, H5, H6, H7, H90, H91⟩
  ihave H8 := (pointsTo_share (PosShare.mem_left_op_right fullShare)).1 $$ H8
  icases H8 with ⟨H8a, H8b⟩
  isplitl [H8a]; · iexact H8a
  isplitl [H8b]; · iexact H8b
  isplitl [H4]; · iexact H4
  isplitl [H5]; · iexact H5
  isplitl [H6]; · iexact H6
  isplitl [H7]; · iexact H7
  isplitl [H90]; · iexact H90
  iexact H91

/-- Gathering the windows' shares into the buffers again. -/
theorem arrays_to_arrBufs (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare) (hq4 : dat.q 4 = fullShare) (hq5 : dat.q 5 = fullShare)
    (X : (b : Ref sig .tc) → Buf (Elt F) ((c : Thread nD τ).loc b)) :
    dat.arrays (fun w => X (Pipeline.arrRef spec0 w)) ⊢ (Pipeline.arrBufs spec0 c X : sProp 𝕄) := by
  rw [arrBufs0_eq, arrays0_eq c dat hq0 hq1 hq2 hq3 hq4 hq5]
  iintro ⟨H8a, H8b, H4, H5, H6, H7, H90, H91⟩
  ihave H8 := (pointsTo_share (PosShare.mem_left_op_right fullShare)).2 $$ [H8a H8b]
  · isplitl [H8a] <;> iassumption
  isplitl [H8]; · iexact H8
  isplitl [H4]; · iexact H4
  isplitl [H5]; · iexact H5
  isplitl [H6]; · iexact H6
  isplitl [H7]; · iexact H7
  isplitl [H90]; · iexact H90
  iexact H91

end Cert.KernelIdeal.GenH

end
-- ==== Proof.KI.Run.lean ====
/- The run of @main: the eleven host operations before the kernel, the kernel at its sixteen grid points, the nineteen
   host operations after it. Two input windows read one buffer, so the buffers behind the windows are dealt to the windows
   at the region's entry and gathered again at its exit; the host operations after the kernel read only the two result
   columns, which end at the proof data's final contents, and write none of the windows' arrays. -/
import proofs.«148254_j88089779241009_2_alg».proof.Proof.KI.Body
import proofs.«148254_j88089779241009_2_alg».proof.Proof.KI.Split
import proofs.«148254_j88089779241009_2_alg».proof.Proof.LibFrameSharedAround

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Classical in
/-- The buffers' contents at the region's exit: the two result columns at the proof data's final contents, every other
    buffer as the region found it. -/
def VN (c : Dev nD) : Valuation τ sig (Elt F) :=
  Function.update (Function.update (V0 m c) (Proc.devRef .tc main_v9_0) ((dats m 0 c).arrAt 6 cfg0.N))
    (Proc.devRef .tc main_v9_1) ((dats m 0 c).arrAt 7 cfg0.N)

theorem VN_v9_1 (c : Dev nD) : VN m c (Proc.devRef .tc main_v9_1) = (dats m 0 c).arrAt 7 cfg0.N := by
  unfold VN; exact Function.update_self ..

theorem VN_v9_0 (c : Dev nD) : VN m c (Proc.devRef .tc main_v9_0) = (dats m 0 c).arrAt 6 cfg0.N := by
  unfold VN
  rw [Function.update_of_ne (StableHlo.devRef_ne_of_ne (by decide))]
  exact Function.update_self ..

theorem VN_other (c : Dev nD) (b : Ref sig .tc) (h0 : b ≠ main_v9_0) (h1 : b ≠ main_v9_1) :
    VN m c (Proc.devRef .tc b) = V0 m c (Proc.devRef .tc b) := by
  unfold VN
  rw [Function.update_of_ne (StableHlo.devRef_ne_of_ne h1), Function.update_of_ne (StableHlo.devRef_ne_of_ne h0)]

/-- A buffer that bypasses the region is no window's array, so the exit valuation leaves it as the region found it. -/
theorem VN_rest (c : Dev nD) : ∀ b ∈ Pipeline.restRefs sig spec0, VN m c (Proc.devRef .tc b) = V0 m c (Proc.devRef .tc b) := by
  intro b hb
  have hn : b ∉ Finset.univ.image (Pipeline.arrRef spec0) := (Finset.mem_sdiff.mp hb).2
  refine VN_other m c b (fun e => hn ?_) (fun e => hn ?_)
  · rw [e]; exact Finset.mem_image.mpr ⟨6, Finset.mem_univ _, rfl⟩
  · rw [e]; exact Finset.mem_image.mpr ⟨7, Finset.mem_univ _, rfl⟩

/-- Every window's array ends at the exit valuation's contents of its buffer: an input's array is never written. -/
theorem arrAt_N_eq (c : Dev nD) : ∀ w : Fin cfg0.W, (dats m 0 c).arrAt w cfg0.N = VN m c (Proc.devRef .tc (Pipeline.arrRef spec0 w))
  | ⟨0, _⟩ => ((dats m 0 c).arrAt_in 0 rfl _).trans ((A_eq m c 0).trans (VN_other m c main_v8 (by decide) (by decide)).symm)
  | ⟨1, _⟩ => ((dats m 0 c).arrAt_in 1 rfl _).trans ((A_eq m c 1).trans (VN_other m c main_v8 (by decide) (by decide)).symm)
  | ⟨2, _⟩ => ((dats m 0 c).arrAt_in 2 rfl _).trans ((A_eq m c 2).trans (VN_other m c main_v4 (by decide) (by decide)).symm)
  | ⟨3, _⟩ => ((dats m 0 c).arrAt_in 3 rfl _).trans ((A_eq m c 3).trans (VN_other m c main_v5 (by decide) (by decide)).symm)
  | ⟨4, _⟩ => ((dats m 0 c).arrAt_in 4 rfl _).trans ((A_eq m c 4).trans (VN_other m c main_v6 (by decide) (by decide)).symm)
  | ⟨5, _⟩ => ((dats m 0 c).arrAt_in 5 rfl _).trans ((A_eq m c 5).trans (VN_other m c main_v7 (by decide) (by decide)).symm)
  | ⟨6, _⟩ => (VN_v9_0 m c).symm
  | ⟨7, _⟩ => (VN_v9_1 m c).symm

/-- The host operations after the kernel touch only unscoped TensorCore buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline (each writes only its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option backward.isDefEq.respectTransparency.types false in
/-- Every weakly fair execution of @main terminates; every window's array ends at the proof data's final contents and
    every other unscoped buffer at what the host operations after the kernel leave from the exit valuation. -/
theorem run_main : θ_run defs (onTc (τ := τ) (main (F := F))) (s₀ m ρ)
    (Pipeline.FramePost cfgs (dats m) 0 (fun c b => StableHlo.after ([hostOps1] : List (List (HloOp τ sig (Elt F)))).flatten (VN m c) (Proc.devRef .tc b))) :=
  Pipeline.θ_run_frame_around_track_shared cfgs (dats m) (0 : Fin 1) cellOf_inj winFacts₀0 block_pos0 arr_whole0 stage_whole0
    defs₀ Variants.none m ρ main
    (hbody := fun c => (body_obligation m c).loose) (howed := fun _ _ => rfl) (V₀ := V0 m) (opss := [hostOps1])
    (hsub := sfx_sub) (hfresh := sfx_fresh) (hkeep := sfx_keeps) (hmain := hmain m Variants.none)
    (hsplit := fun c => (arrBufs_to_arrays c (dats m 0 c) rfl rfl rfl rfl rfl rfl (V m c)).trans
      (Entails.of_eq (congrArg (dats m 0 c).arrays (funext fun w => (A_eq m c w).symm))))
    (VN := VN m) (hVN := VN_rest m)
    (hjoin := fun c => (Entails.of_eq (congrArg (dats m 0 c).arrays (funext (arrAt_N_eq m c)))).trans
      (arrays_to_arrBufs c (dats m 0 c) rfl rfl rfl rfl rfl rfl (fun b => VN m c (Proc.devRef .tc b))))
    (hsplitN := fun c => (arrBufs_to_arrays c (dats m 0 c) rfl rfl rfl rfl rfl rfl (fun b => VN m c (Proc.devRef .tc b))).trans
      (Entails.of_eq (congrArg (dats m 0 c).arrays (funext fun w => (arrAt_N_eq m c w).symm))))
    (hin := hin m) (hout := hout m)

end Cert.KernelIdeal.GenH

end
-- ==== Proof.KI.Frame.lean ====
/- The frame claim of the program: @main terminates and both argument arrays end as they began. The host operations
   before and after the kernel write neither argument (each writes only its own result buffer), and the kernel's region
   leaves every buffer that is no window's array as it found it; the arguments are no window's array. -/
import proofs.«148254_j88089779241009_2_alg».proof.Proof.KI.Run

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The eleven host operations before the kernel write neither argument array. -/
theorem kept_pre_arg0 (W : Valuation τ sig (Elt F)) :
    StableHlo.after (List.flatten [hostOps0]) W (Proc.devRef .tc main_arg0) = W (Proc.devRef .tc main_arg0) := by
  refine StableHlo.after_of_forall_not_mem _ _ fun op hop => ?_
  simp only [List.flatten_cons, List.flatten_nil, List.append_nil, hostOps0, List.mem_cons, List.mem_nil_iff, or_false] at hop
  rcases hop with rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem kept_pre_arg1 (W : Valuation τ sig (Elt F)) :
    StableHlo.after (List.flatten [hostOps0]) W (Proc.devRef .tc main_arg1) = W (Proc.devRef .tc main_arg1) := by
  refine StableHlo.after_of_forall_not_mem _ _ fun op hop => ?_
  simp only [List.flatten_cons, List.flatten_nil, List.append_nil, hostOps0, List.mem_cons, List.mem_nil_iff, or_false] at hop
  rcases hop with rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The nineteen host operations after the kernel write neither argument array. -/
theorem kept_post_arg0 (W : Valuation τ sig (Elt F)) :
    StableHlo.after (List.flatten [hostOps1]) W (Proc.devRef .tc main_arg0) = W (Proc.devRef .tc main_arg0) := by
  refine StableHlo.after_of_forall_not_mem _ _ fun op hop => ?_
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem kept_post_arg1 (W : Valuation τ sig (Elt F)) :
    StableHlo.after (List.flatten [hostOps1]) W (Proc.devRef .tc main_arg1) = W (Proc.devRef .tc main_arg1) := by
  refine StableHlo.after_of_forall_not_mem _ _ fun op hop => ?_
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The argument arrays are unscoped and no window's array: they bypass the region. -/
theorem mem_arg0 : main_arg0 ∈ Pipeline.restRefs sig spec0 := Pipeline.mem_restRefs_of _ rfl (by decide)
theorem mem_arg1 : main_arg1 ∈ Pipeline.restRefs sig spec0 := Pipeline.mem_restRefs_of _ rfl (by decide)

/-- THE FRAME: from any memory with zero counters every weakly fair execution of @main on the TensorCores terminates,
    and both argument arrays end at their initial contents: a bypassing buffer ends at what the later host operations
    leave of the exit valuation, which at an argument is the entry valuation's, which is the initial memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 mem_arg0).trans ((kept_post_arg0 (VN m c)).trans
        ((VN_other m c main_arg0 (by decide) (by decide)).trans (kept_pre_arg0 _))),
     ((h c).2 main_arg1 mem_arg1).trans ((kept_post_arg1 (VN m c)).trans
        ((VN_other m c main_arg1 (by decide) (by decide)).trans (kept_pre_arg1 _)))⟩) (run_main m ρ)

end Cert.KernelIdeal.GenH

end
-- ==== Proof.KI.Pieces.lean ====
/- What each control case of the kernel's body leaves in the two scratch buffers and, at the last column tile, in the
   two output blocks, as the body's arithmetic applied to the blocks it loaded: the running minimum is the minimum of what
   the point before left (`+∞` at the first column tile) and the tile's masked row minimum; the running maximum likewise;
   the outputs are `√(max ε (-2 · m))` of the two. -/
import proofs.«148254_j88089779241009_2_alg».proof.Proof.KI.BodyDefs
import Idealize.ShloMosaic.Lib.Pipeline.Value

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem sout0_A_0_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x2048 .bf16) (x1 : Vec F S1024x2048 .bf16) (x2 : Vec F S1024x1 .f32) (x3 : Vec F S1x1024 .f32) (x4 : Vec F S1024x1 .i32) (x5 : Vec F S1x1024 .i32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay1 (k0_pay10 x0 x1 x2 x3 x4 x5 (k0_pay5 (F := F))) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  first | rw [View.canon_unit_zero hz] | rw [View.canon_cons_unit_zero hz]
  simp only [View.readAt_eq_ld, Memref.IsWhole.read_unread, View.ld_unit_zero (S := S1024x2048) hz,
    View.ld_unit_zero (S := S1024x1) hz, View.ld_unit_zero (S := S1x1024) hz, View.readCov_unit_zero (S := S1024x1) arg10.view hz,
    View.readCov_unit_zero (S := S1024x1) arg11.view hz]

theorem sout0_A_1_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x2048 .bf16) (x1 : Vec F S1024x2048 .bf16) (x2 : Vec F S1024x1 .f32) (x3 : Vec F S1x1024 .f32) (x4 : Vec F S1024x1 .i32) (x5 : Vec F S1x1024 .i32) :
    sout0_A_1 c i arg2 harg2 arg3 harg3 arg4 harg4 arg5 harg5 arg6 harg6 arg7 harg7 arg8 harg8 arg9 harg9 arg10 harg10 arg11 harg11 hc0 hc1 x0 x1 x2 x3 x4 x5 = k0_pay2 (k0_pay9 x0 x1 x2 x3 x4 x5) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  first | rw [View.canon_unit_zero hz] | rw [View.canon_cons_unit_zero hz]
  simp only [View.readAt_eq_ld, Memref.IsWhole.read_unread, View.ld_unit_zero (S := S1024x2048) hz,
    View.ld_unit_zero (S := S1024x1) hz, View.ld_unit_zero (S := S1x1024) hz, View.readCov_unit_zero (S := S1024x1) arg10.view hz,
    View.readCov_unit_zero (S := S1024x1) arg11.view hz]

theorem sout0_B_0_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay10 x0 x1 x2 x3 x4 x5 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  first | rw [View.canon_unit_zero hz] | rw [View.canon_cons_unit_zero hz]
  simp only [View.readAt_eq_ld, Memref.IsWhole.read_unread, View.ld_unit_zero (S := S1024x2048) hz,
    View.ld_unit_zero (S := S1024x1) hz, View.ld_unit_zero (S := S1x1024) hz, View.readCov_unit_zero (S := S1024x1) arg10.view hz,
    View.readCov_unit_zero (S := S1024x1) arg11.view hz]

theorem sout0_B_1_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay9 x0 x1 x2 x3 x4 x5) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  first | rw [View.canon_unit_zero hz] | rw [View.canon_cons_unit_zero hz]
  simp only [View.readAt_eq_ld, Memref.IsWhole.read_unread, View.ld_unit_zero (S := S1024x2048) hz,
    View.ld_unit_zero (S := S1024x1) hz, View.ld_unit_zero (S := S1x1024) hz, View.readCov_unit_zero (S := S1024x1) arg10.view hz,
    View.readCov_unit_zero (S := S1024x1) arg11.view hz]

theorem sout0_C_0_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay10 x0 x1 x2 x3 x4 x5 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  first | rw [View.canon_unit_zero hz] | rw [View.canon_cons_unit_zero hz]
  simp only [View.readAt_eq_ld, Memref.IsWhole.read_unread, View.ld_unit_zero (S := S1024x2048) hz,
    View.ld_unit_zero (S := S1024x1) hz, View.ld_unit_zero (S := S1x1024) hz, View.readCov_unit_zero (S := S1024x1) arg10.view hz,
    View.readCov_unit_zero (S := S1024x1) arg11.view hz]

theorem sout0_C_1_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay9 x0 x1 x2 x3 x4 x5) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  first | rw [View.canon_unit_zero hz] | rw [View.canon_cons_unit_zero hz]
  simp only [View.readAt_eq_ld, Memref.IsWhole.read_unread, View.ld_unit_zero (S := S1024x2048) hz,
    View.ld_unit_zero (S := S1024x1) hz, View.ld_unit_zero (S := S1x1024) hz, View.readCov_unit_zero (S := S1024x1) arg10.view hz,
    View.readCov_unit_zero (S := S1024x1) arg11.view hz]

theorem out0_C_6_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 = k0_pay3 (k0_pay1 (k0_pay10 x0 x1 x2 x3 x4 x5 xs0)) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  first | rw [View.canon_unit_zero hz] | rw [View.canon_cons_unit_zero hz]
  simp only [View.readAt_eq_ld, Memref.IsWhole.read_unread, View.ld_unit_zero (S := S1024x2048) hz,
    View.ld_unit_zero (S := S1024x1) hz, View.ld_unit_zero (S := S1x1024) hz, View.readCov_unit_zero (S := S1024x1) arg10.view hz,
    View.readCov_unit_zero (S := S1024x1) arg11.view hz]

theorem out0_C_7_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x2048 .bf16) (x1 : Vec F S1024x2048 .bf16) (x2 : Vec F S1024x1 .f32) (x3 : Vec F S1x1024 .f32) (x4 : Vec F S1024x1 .i32) (x5 : Vec F S1x1024 .i32) (xs0 xs1 : Vec F S1024x1 .f32) :
    out0_C_7 c i arg2 harg2 arg3 harg3 arg4 harg4 arg5 harg5 arg6 harg6 arg7 harg7 arg8 harg8 arg9 harg9 arg10 harg10 arg11 harg11 hc0 hc1 x0 x1 x2 x3 x4 x5 xs0 xs1 = k0_pay4 (k0_pay2 (k0_pay9 x0 x1 x2 x3 x4 x5) xs1) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  first | rw [View.canon_unit_zero hz] | rw [View.canon_cons_unit_zero hz]
  simp only [View.readAt_eq_ld, Memref.IsWhole.read_unread, View.ld_unit_zero (S := S1024x2048) hz,
    View.ld_unit_zero (S := S1024x1) hz, View.ld_unit_zero (S := S1x1024) hz, View.readCov_unit_zero (S := S1024x1) arg10.view hz,
    View.readCov_unit_zero (S := S1024x1) arg11.view hz]

end Cert.KernelIdeal.GenH

end
-- ==== Proof.Spec.lean ====
/-
  The kernel's result, stated once as plain functions of the two argument arrays over the extended reals.

  For a matrix `x` of 4096 rows of 2048 entries and a label per row, the kernel computes for every row `r`
  the quantity `t r s = x_r · x_s - ‖x_r‖²/2 - ‖x_s‖²/2` against every row `s`, so that the squared distance of the
  two rows is `-2 · t r s`. It keeps, per row `r`, the minimum of `t r s` over the rows `s` of the same label (the
  farthest positive) and the maximum over the rows of another label (the nearest negative), folding the 4096
  columns in four consecutive tiles of 1024, and ends with `√(max ε (-2 · m))` of each.
-/
import Idealize.ShloMosaic.PureOps.Ideal
import Idealize.ShloMosaic.Lib.ValueIdx

noncomputable section

namespace Cert.Triplet

open Idealize.ShloMosaic Idealize.ShloMosaic.ValueIdx
open scoped BigOperators

/-- The shape of the data matrix and of the label vector. -/
abbrev SX : Shape := ⟨2, ![4096, 2048]⟩
abbrev ST : Shape := ⟨1, ![4096]⟩

/-- The literals of the computation, each the value its binary word denotes. -/
def pinf : EReal := Ideal.ofBits .f32 0x7F800000#32
def ninf : EReal := Ideal.ofBits .f32 0xFF800000#32
def eps : EReal := Ideal.ofBits .f32 0x2B8CBCCC#32
def m2 : EReal := Ideal.ofBits .f32 0xC0000000#32
def mh : EReal := Ideal.ofBits .f32 0xBF000000#32
def z0 : EReal := Ideal.ofBits .f32 0x00000000#32

/-- The squared norm of row `r`, summed from the initial value zero. -/
def sqn (x : SX.Idx → EReal) (r : Fin 4096) : EReal := z0 + ∑ d : Fin 2048, x (ix2 r d) * x (ix2 r d)
/-- Minus half of it. -/
def hsq (x : SX.Idx → EReal) (r : Fin 4096) : EReal := mh * sqn x r
/-- The inner product of rows `r` and `s`. -/
def dotp (x : SX.Idx → EReal) (r s : Fin 4096) : EReal := ∑ d : Fin 2048, x (ix2 r d) * x (ix2 s d)
/-- `t r s`: minus half the squared distance of rows `r` and `s`. -/
def tK (x : SX.Idx → EReal) (r s : Fin 4096) : EReal := (dotp x r s + hsq x r) + hsq x s

/-- Column `q` of the `n`-th tile of 1024 columns. -/
def col (n : ℕ) (q : Fin 1024) : Fin 4096 := ⟨(1024 * n + q.val) % 4096, Nat.mod_lt _ (by norm_num)⟩

theorem col_val (n : ℕ) (hn : n < 4) (q : Fin 1024) : (col n q).val = 1024 * n + q.val := by
  have := q.isLt
  show (1024 * n + q.val) % 4096 = _
  exact Nat.mod_eq_of_lt (by omega)

/-- The minimum of `t r s` over the same-label columns `s` of tile `n` (the others count as `+∞`), -/
def bmin (x : SX.Idx → EReal) (tg : ST.Idx → BitVec 32) (r : Fin 4096) (n : ℕ) : EReal :=
  (Finset.univ : Finset (Fin 1024)).fold min pinf
    (fun q => if tg (ix1 r) = tg (ix1 (col n q)) then tK x r (col n q) else pinf)
/-- and the maximum over the other-label columns of the tile (the same-label ones count as `-∞`). -/
def bmax (x : SX.Idx → EReal) (tg : ST.Idx → BitVec 32) (r : Fin 4096) (n : ℕ) : EReal :=
  (Finset.univ : Finset (Fin 1024)).fold max ninf
    (fun q => if tg (ix1 r) = tg (ix1 (col n q)) then ninf else tK x r (col n q))

/-- The running minimum after `n` tiles, from `+∞`, -/
def mpos (x : SX.Idx → EReal) (tg : ST.Idx → BitVec 32) (r : Fin 4096) : ℕ → EReal
  | 0 => pinf
  | n + 1 => min (mpos x tg r n) (bmin x tg r n)
/-- and the running maximum, from `-∞`. -/
def mneg (x : SX.Idx → EReal) (tg : ST.Idx → BitVec 32) (r : Fin 4096) : ℕ → EReal
  | 0 => ninf
  | n + 1 => max (mneg x tg r n) (bmax x tg r n)

/-- The distance to the farthest row of the same label, -/
def apK (x : SX.Idx → EReal) (tg : ST.Idx → BitVec 32) (r : Fin 4096) : EReal :=
  Ideal.sqrt (max eps (m2 * mpos x tg r 4))
/-- and to the nearest row of another label (`+∞` if there is none). -/
def anK (x : SX.Idx → EReal) (tg : ST.Idx → BitVec 32) (r : Fin 4096) : EReal :=
  Ideal.sqrt (max eps (m2 * mneg x tg r 4))

/-- The two as vectors over the rows. -/
def apV (x : SX.Idx → EReal) (tg : ST.Idx → BitVec 32) : ST.Idx → EReal := fun i => apK x tg (i 0)
def anV (x : SX.Idx → EReal) (tg : ST.Idx → BitVec 32) : ST.Idx → EReal := fun i => anK x tg (i 0)

theorem apV_ix1 (x : SX.Idx → EReal) (tg : ST.Idx → BitVec 32) (r : Fin 4096) : apV x tg (ix1 r) = apK x tg r := rfl
theorem anV_ix1 (x : SX.Idx → EReal) (tg : ST.Idx → BitVec 32) (r : Fin 4096) : anV x tg (ix1 r) = anK x tg r := rfl

end Cert.Triplet

end
-- ==== Proof.KI.Blocks.lean ====
/- Where each window's block sits in its array. The grid's point `t` is the pair (row tile t / 4, column tile t % 4); the
   query windows (0, 2, 4) and the output windows follow the row tile, the key windows (1, 3, 5) the column tile. An entry
   of a block is the array's entry at tile index times 1024 plus the coordinate inside the block. -/
import proofs.«148254_j88089779241009_2_alg».proof.Proof.KI.Runs
import proofs.«148254_j88089779241009_2_alg».proof.Proof.Spec
import Idealize.ShloMosaic.Lib.ValueIdx

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Triplet

variable (m : (ℓ : Loc nD τ sig) → Buf (Elt F) ℓ)

/-- The printed index maps in closed form, decided over the sixteen points. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0
    ∧ win0_5.index t (0 : Fin 2) = 0 ∧ win0_5.index t (1 : Fin 2) = t.val % 4
    ∧ win0_6.index t (0 : Fin 2) = t.val / 4 ∧ win0_6.index t (1 : Fin 2) = 0
    ∧ win0_7.index t (0 : Fin 2) = t.val / 4 ∧ win0_7.index t (1 : Fin 2) = 0 :=
  (by decide +kernel : ∀ t : Fin grid0.N, _)

theorem t_lt (t : Fin cfg0.N) : t.val < 16 := lt_of_lt_of_eq t.isLt (show cfg0.N = 16 from N_0)

/-- Query rows: entry (p, k) of window 0's block is row `1024 (t/4) + p` of the bf16 matrix. -/
theorem iblk0_apply (c : Dev nD) (t : Fin cfg0.N) (p : Fin 1024) (k : Fin 2048) :
    (iblk m c 0 t : Vec F S1024x2048 .bf16) (ix2 p k) = V m c main_v8 (ix2 (col (t.val / 4) p) k) := by
  have ht := t_lt t
  obtain ⟨e0, e1, -⟩ := idx_facts t
  show V m c main_v8 (((cfg0.win 0).blk t).view.emb (ix2 p k)) = V m c main_v8 _
  refine congrArg _ ?_
  funext a; apply Fin.ext
  match a with
  | ⟨0, _⟩ => show win0_0.index t (0 : Fin 2) * 1024 + 1 * p.val = (col (t.val / 4) p).val; rw [col_val _ (by omega) p, e0]; omega
  | ⟨1, _⟩ => show win0_0.index t (1 : Fin 2) * 2048 + 1 * k.val = k.val; rw [e1]; omega

/-- Key rows: entry (q, k) of window 1's block is row `1024 (t%4) + q` of the same matrix. -/
theorem iblk1_apply (c : Dev nD) (t : Fin cfg0.N) (q : Fin 1024) (k : Fin 2048) :
    (iblk m c 1 t : Vec F S1024x2048 .bf16) (ix2 q k) = V m c main_v8 (ix2 (col (t.val % 4) q) k) := by
  have ht := t_lt t
  obtain ⟨-, -, e0, e1, -⟩ := idx_facts t
  show V m c main_v8 (((cfg0.win 1).blk t).view.emb (ix2 q k)) = V m c main_v8 _
  refine congrArg _ ?_
  funext a; apply Fin.ext
  match a with
  | ⟨0, _⟩ => show win0_1.index t (0 : Fin 2) * 1024 + 1 * q.val = (col (t.val % 4) q).val; rw [col_val _ (by omega) q, e0]; omega
  | ⟨1, _⟩ => show win0_1.index t (1 : Fin 2) * 2048 + 1 * k.val = k.val; rw [e1]; omega

/-- The query rows' half squared norms, a column. -/
theorem iblk2_apply (c : Dev nD) (t : Fin cfg0.N) (p : Fin 1024) :
    (iblk m c 2 t : Vec F S1024x1 .f32) (ix2 p (0 : Fin 1)) = V m c main_v4 (ix2 (col (t.val / 4) p) (0 : Fin 1)) := by
  have ht := t_lt t
  obtain ⟨-, -, -, -, e0, e1, -⟩ := idx_facts t
  show V m c main_v4 (((cfg0.win 2).blk t).view.emb (ix2 p (0 : Fin 1))) = V m c main_v4 _
  refine congrArg _ ?_
  funext a; apply Fin.ext
  match a with
  | ⟨0, _⟩ => show win0_2.index t (0 : Fin 2) * 1024 + 1 * p.val = (col (t.val / 4) p).val; rw [col_val _ (by omega) p, e0]; omega
  | ⟨1, _⟩ => show win0_2.index t (1 : Fin 2) * 1 + 1 * 0 = 0; rw [e1]

/-- The key rows' half squared norms, a row. -/
theorem iblk3_apply (c : Dev nD) (t : Fin cfg0.N) (q : Fin 1024) :
    (iblk m c 3 t : Vec F S1x1024 .f32) (ix2 (0 : Fin 1) q) = V m c main_v5 (ix2 (0 : Fin 1) (col (t.val % 4) q)) := by
  have ht := t_lt t
  obtain ⟨-, -, -, -, -, -, e0, e1, -⟩ := idx_facts t
  show V m c main_v5 (((cfg0.win 3).blk t).view.emb (ix2 (0 : Fin 1) q)) = V m c main_v5 _
  refine congrArg _ ?_
  funext a; apply Fin.ext
  match a with
  | ⟨0, _⟩ => show win0_3.index t (0 : Fin 2) * 1 + 1 * 0 = 0; rw [e0]
  | ⟨1, _⟩ => show win0_3.index t (1 : Fin 2) * 1024 + 1 * q.val = (col (t.val % 4) q).val; rw [col_val _ (by omega) q, e1]; omega

/-- The query rows' labels, a column. -/
theorem iblk4_apply (c : Dev nD) (t : Fin cfg0.N) (p : Fin 1024) :
    (iblk m c 4 t : Vec F S1024x1 .i32) (ix2 p (0 : Fin 1)) = V m c main_v6 (ix2 (col (t.val / 4) p) (0 : Fin 1)) := by
  have ht := t_lt t
  obtain ⟨-, -, -, -, -, -, -, -, e0, e1, -⟩ := idx_facts t
  show V m c main_v6 (((cfg0.win 4).blk t).view.emb (ix2 p (0 : Fin 1))) = V m c main_v6 _
  refine congrArg _ ?_
  funext a; apply Fin.ext
  match a with
  | ⟨0, _⟩ => show win0_4.index t (0 : Fin 2) * 1024 + 1 * p.val = (col (t.val / 4) p).val; rw [col_val _ (by omega) p, e0]; omega
  | ⟨1, _⟩ => show win0_4.index t (1 : Fin 2) * 1 + 1 * 0 = 0; rw [e1]

/-- The key rows' labels, a row. -/
theorem iblk5_apply (c : Dev nD) (t : Fin cfg0.N) (q : Fin 1024) :
    (iblk m c 5 t : Vec F S1x1024 .i32) (ix2 (0 : Fin 1) q) = V m c main_v7 (ix2 (0 : Fin 1) (col (t.val % 4) q)) := by
  have ht := t_lt t
  obtain ⟨-, -, -, -, -, -, -, -, -, -, e0, e1, -⟩ := idx_facts t
  show V m c main_v7 (((cfg0.win 5).blk t).view.emb (ix2 (0 : Fin 1) q)) = V m c main_v7 _
  refine congrArg _ ?_
  funext a; apply Fin.ext
  match a with
  | ⟨0, _⟩ => show win0_5.index t (0 : Fin 2) * 1 + 1 * 0 = 0; rw [e0]
  | ⟨1, _⟩ => show win0_5.index t (1 : Fin 2) * 1024 + 1 * q.val = (col (t.val % 4) q).val; rw [col_val _ (by omega) q, e1]; omega

end Cert.KernelIdeal.GenH

end
-- ==== Proof.PayIdeal.lean ====
/-
  The kernel body's arithmetic read at an index, over the extended reals.

  Every value the kernel body stores is a pure function of the vectors it loaded. Here each such function is read at one
  index: the tile of pairwise terms is the inner product of row `p` of the left block with row `q` of the right block plus
  the two half squared norms; the label mask compares the two labels; the running extrema fold `min` / `max` over the
  1024 columns of the tile, the masked-out columns counting as `+∞` resp. `-∞`; the epilogue is `√(max ε (-2 · m))`.
-/
import proofs.«148254_j88089779241009_2_alg».proof.Proof.Gen.KernelIdeal.Skeleton
import proofs.«148254_j88089779241009_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Triplet.Pay

open Cert.KernelIdeal Cert.KernelIdeal.Gen Cert.Triplet Idealize.ShloMosaic Idealize.ShloMosaic.ValueIdx
open scoped BigOperators

/-! ## Three layout operations at an index given by coordinates -/

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The matrix product at an index -/

/-- The left operand's index of the product at output `j` has `j`'s row … -/
theorem lhsIdx_0 (j : S1024x1024.Idx) (κ : dot_S1024x2048_S2048x1024_S1024x1024_1_0_0_1_n_n.contr.Idx) :
    (dot_S1024x2048_S2048x1024_S1024x1024_1_0_0_1_n_n.lhsIdx j κ 0).val = (j 0).val := by
  unfold DotDims.lhsIdx
  rw [dif_neg (show ¬(0 : Fin S1024x2048.rank) ∈ dot_S1024x2048_S2048x1024_S1024x1024_1_0_0_1_n_n.lhsBatch by decide),
    dif_pos (show (0 : Fin S1024x2048.rank) ∈ dot_S1024x2048_S2048x1024_S1024x1024_1_0_0_1_n_n.lhsNonContracting by decide)]
  rfl
/-- … and the contraction coordinate as its column; -/
theorem lhsIdx_1 (j : S1024x1024.Idx) (κ : dot_S1024x2048_S2048x1024_S1024x1024_1_0_0_1_n_n.contr.Idx) :
    (dot_S1024x2048_S2048x1024_S1024x1024_1_0_0_1_n_n.lhsIdx j κ 1).val = (κ ⟨0, by decide⟩).val :=
  dot_S1024x2048_S2048x1024_S1024x1024_1_0_0_1_n_n.lhsIdx_val_of_single rfl j κ
/-- the right operand's has the contraction coordinate as its row … -/
theorem rhsIdx_0 (j : S1024x1024.Idx) (κ : dot_S1024x2048_S2048x1024_S1024x1024_1_0_0_1_n_n.contr.Idx) :
    (dot_S1024x2048_S2048x1024_S1024x1024_1_0_0_1_n_n.rhsIdx j κ 0).val = (κ ⟨0, by decide⟩).val :=
  dot_S1024x2048_S2048x1024_S1024x1024_1_0_0_1_n_n.rhsIdx_val_of_single rfl j κ
/-- … and `j`'s column. -/
theorem rhsIdx_1 (j : S1024x1024.Idx) (κ : dot_S1024x2048_S2048x1024_S1024x1024_1_0_0_1_n_n.contr.Idx) :
    (dot_S1024x2048_S2048x1024_S1024x1024_1_0_0_1_n_n.rhsIdx j κ 1).val = (j 1).val := by
  unfold DotDims.rhsIdx
  rw [dif_neg (show ¬(1 : Fin S2048x1024.rank) ∈ dot_S1024x2048_S2048x1024_S1024x1024_1_0_0_1_n_n.rhsBatch by decide),
    dif_pos (show (1 : Fin S2048x1024.rank) ∈ dot_S1024x2048_S2048x1024_S1024x1024_1_0_0_1_n_n.rhsNonContracting by decide)]
  rfl

/-- The product of a `[1024, 2048]` block with a `[2048, 1024]` block into the zero accumulator is, at `(p, q)`, the sum
    over the 2048 contraction coordinates of the products of the operands' entries. -/
theorem matmul_zero_apply (A : FVec Ideal S1024x2048 .bf16) (B : FVec Ideal S2048x1024 .bf16) (p q : Fin 1024) :
    matmul (F := Ideal) dot_S1024x2048_S2048x1024_S1024x1024_1_0_0_1_n_n none A B (constant S1024x1024 .f32 0x00000000#32) (ix2 p q)
      = ∑ k : Fin 2048, A (ix2 p k) * B (ix2 k q) := by
  simp only [matmul]
  rw [Ideal.matmul_constant_zero_apply,
    ← Equiv.sum_comp (contrEquiv1 dot_S1024x2048_S2048x1024_S1024x1024_1_0_0_1_n_n 2048 rfl rfl).symm]
  refine Finset.sum_congr rfl fun k _ => ?_
  have hk := contrEquiv1_symm_val dot_S1024x2048_S2048x1024_S1024x1024_1_0_0_1_n_n 2048 rfl rfl k
  have el : dot_S1024x2048_S2048x1024_S1024x1024_1_0_0_1_n_n.lhsIdx (ix2 p q)
      ((contrEquiv1 dot_S1024x2048_S2048x1024_S1024x1024_1_0_0_1_n_n 2048 rfl rfl).symm k) = ix2 p k :=
    funext fun a => Fin.ext (by
      match a with
      | ⟨0, _⟩ => exact lhsIdx_0 _ _
      | ⟨1, _⟩ => exact (lhsIdx_1 _ _).trans hk)
  have er : dot_S1024x2048_S2048x1024_S1024x1024_1_0_0_1_n_n.rhsIdx (ix2 p q)
      ((contrEquiv1 dot_S1024x2048_S2048x1024_S1024x1024_1_0_0_1_n_n 2048 rfl rfl).symm k) = ix2 k q :=
    funext fun a => Fin.ext (by
      match a with
      | ⟨0, _⟩ => exact (rhsIdx_0 _ _).trans hk
      | ⟨1, _⟩ => exact rhsIdx_1 _ _)
  rw [el, er]

/-- Against the transpose of a `[1024, 2048]` block the sum pairs row `p` of the left block with row `q` of the right one. -/
theorem matmul_transpose_apply (A B : FVec Ideal S1024x2048 .bf16) (hT : S1024x2048.Transposes [1, 0] S2048x1024)
    (p q : Fin 1024) :
    matmul (F := Ideal) dot_S1024x2048_S2048x1024_S1024x1024_1_0_0_1_n_n none A (transpose S2048x1024 [1, 0] B hT)
        (constant S1024x1024 .f32 0x00000000#32) (ix2 p q)
      = ∑ k : Fin 2048, A (ix2 p k) * B (ix2 q k) := by
  rw [matmul_zero_apply]
  refine Finset.sum_congr rfl fun k _ => ?_
  exact congrArg (A (ix2 p k) * ·) (transpose_ix2_apply B hT k q)

/-! ## Words: the label comparison and the select on it -/

/-- The one-bit result of an equality comparison of two words is `1` exactly when they are equal. -/
theorem cmpi_eq_ite {w : ℕ} (x y : BitVec w) : IntOp.cmpi .eq x y = if x = y then 1#1 else 0#1 := by
  show BitVec.ofBool (x == y) = _
  by_cases h : x = y
  · rw [if_pos h, beq_iff_eq.mpr h]; rfl
  · rw [if_neg h, beq_eq_false_iff_ne.mpr h]; rfl

/-- A select on such a bit is the `if` on the condition. -/
theorem select_ite {α : Type} (c : Prop) [Decidable c] (a b : α) :
    Scalar.select (if c then 1#1 else 0#1) a b = if c then a else b := by
  by_cases h : c
  · rw [if_pos h, if_pos h, select_one]
  · rw [if_neg h, if_neg h, select_zero]

/-! ## A lane minimum and a lane maximum over the columns -/

/-- The minimum over axis 1 of a `[1024, 1024]` tile from the accumulator `+∞` is, at row `p`, the fold of `min` from
    `+∞` over the row's 1024 entries. -/
theorem rowMin_apply (src : FVec Ideal S1024x1024 .f32) (h : S1024x1024.Reduces [1] S1024) (hφ : FKind.Formats .f32)
    (hacc : (0x7F800000#32 : BitVec 32) = FKind.minimumf.neutral .f32 hφ) (p : Fin 1024) :
    multiReduction (F := Ideal) .minimumf [1] S1024 src 0x7F800000#32 h hφ hacc (ix1 p)
      = (Finset.univ : Finset (Fin 1024)).fold min pinf (fun q => src (ix2 p q)) := by
  rw [multiReduction_minimumf_eq_fold]
  refine (h.fold_filter_drop_single _ _ src (ix1 p)).trans ?_
  refine congrArg (fun f => (Finset.univ : Finset (Fin 1024)).fold min pinf f) (funext fun q => ?_)
  exact congrArg src (funext fun a => Fin.ext (by match a with | ⟨0, _⟩ => rfl | ⟨1, _⟩ => rfl))

/-- The maximum likewise, from `-∞`. -/
theorem rowMax_apply (src : FVec Ideal S1024x1024 .f32) (h : S1024x1024.Reduces [1] S1024) (hφ : FKind.Formats .f32)
    (hacc : (0xFF800000#32 : BitVec 32) = FKind.maximumf.neutral .f32 hφ) (p : Fin 1024) :
    multiReduction (F := Ideal) .maximumf [1] S1024 src 0xFF800000#32 h hφ hacc (ix1 p)
      = (Finset.univ : Finset (Fin 1024)).fold max ninf (fun q => src (ix2 p q)) := by
  rw [multiReduction_maximumf_eq_fold]
  refine (h.fold_filter_drop_single _ _ src (ix1 p)).trans ?_
  refine congrArg (fun f => (Finset.univ : Finset (Fin 1024)).fold max ninf f) (funext fun q => ?_)
  exact congrArg src (funext fun a => Fin.ext (by match a with | ⟨0, _⟩ => rfl | ⟨1, _⟩ => rfl))

/-! ## The tile of pairwise terms, and the label mask -/

/-- The tile at `(p, q)`, over vectors typed as float vectors. -/
theorem pay7_read (v3 v5 : FVec Ideal S1024x2048 .bf16) (v9 : FVec Ideal S1024x1 .f32) (v11 : FVec Ideal S1x1024 .f32)
    (p q : Fin 1024) :
    k0_pay7 (F := Ideal) v3 v5 v9 v11 (ix2 p q)
      = ((∑ k : Fin 2048, v3 (ix2 p k) * v5 (ix2 q k)) + v9 (ix2 p (0 : Fin 1))) + v11 (ix2 (0 : Fin 1) q) := by
  unfold k0_pay7
  simp only [shapeCast_self]
  rw [addf_apply, addf_apply, broadcastTo_a1_ab_apply, broadcastTo_1b_ab_apply, matmul_transpose_apply]

/-- The tile at `(p, q)`: the inner product of row `p` of the left block and row `q` of the right block, plus the left
    column's entry at `p`, plus the right row's entry at `q`. -/
theorem pay7_apply (v3 v5 : Vec Ideal S1024x2048 .bf16) (v9 : Vec Ideal S1024x1 .f32) (v11 : Vec Ideal S1x1024 .f32)
    (p q : Fin 1024) :
    k0_pay7 (F := Ideal) v3 v5 v9 v11 (ix2 p q)
      = ((∑ k : Fin 2048, v3 (ix2 p k) * v5 (ix2 q k)) + v9 (ix2 p (0 : Fin 1))) + v11 (ix2 (0 : Fin 1) q) :=
  pay7_read v3 v5 v9 v11 p q

/-- The mask at `(p, q)`, over vectors typed as integer vectors. -/
theorem pay8_read (v17 : IVec S1024x1 32) (v19 : IVec S1x1024 32) (p q : Fin 1024) :
    k0_pay8 (F := Ideal) v17 v19 (ix2 p q) = if v17 (ix2 p (0 : Fin 1)) = v19 (ix2 (0 : Fin 1) q) then 1#1 else 0#1 := by
  unfold k0_pay8
  simp only [shapeCast_self]
  show IntOp.cmpi .eq (broadcastTo S1024x1024 v17 _ (ix2 p q)) (broadcastTo S1024x1024 v19 _ (ix2 p q)) = _
  rw [broadcastTo_a1_ab_apply, broadcastTo_1b_ab_apply, cmpi_eq_ite]

/-- The mask at `(p, q)`: the bit `1` exactly when the left label at `p` equals the right label at `q`. -/
theorem pay8_apply (v17 : Vec Ideal S1024x1 .i32) (v19 : Vec Ideal S1x1024 .i32) (p q : Fin 1024) :
    k0_pay8 (F := Ideal) v17 v19 (ix2 p q) = if v17 (ix2 p (0 : Fin 1)) = v19 (ix2 (0 : Fin 1) q) then 1#1 else 0#1 :=
  pay8_read v17 v19 p q

end Cert.Triplet.Pay

end
-- ==== Proof.PayIdeal2.lean ====
/-
  The kernel body's running extrema and its epilogue read at an index, over the extended reals.

  For row `p` of the tile the kernel folds `min` over the same-label columns (the others count as `+∞`) and `max` over the
  other-label columns (the same-label ones count as `-∞`), combines each with the value carried from the earlier tiles,
  and at the last tile maps the carried value `m` to `√(max ε (-2 · m))`.
-/
import proofs.«148254_j88089779241009_2_alg».proof.Proof.PayIdeal

noncomputable section

namespace Cert.Triplet.Pay

open Cert.KernelIdeal Cert.KernelIdeal.Gen Cert.Triplet Idealize.ShloMosaic Idealize.ShloMosaic.ValueIdx
open scoped BigOperators

/-! ## The running minimum over the same-label columns -/

/-- Over vectors typed as float and integer vectors. -/
theorem pay10_read (v3 v5 : FVec Ideal S1024x2048 .bf16) (v9 : FVec Ideal S1024x1 .f32) (v11 : FVec Ideal S1x1024 .f32)
    (v17 : IVec S1024x1 32) (v19 : IVec S1x1024 32) (v32 : FVec Ideal S1024x1 .f32) (p : Fin 1024) :
    k0_pay10 (F := Ideal) v3 v5 v9 v11 v17 v19 v32 (ix2 p (0 : Fin 1))
      = min (v32 (ix2 p (0 : Fin 1))) ((Finset.univ : Finset (Fin 1024)).fold min pinf (fun q =>
          if v17 (ix2 p (0 : Fin 1)) = v19 (ix2 (0 : Fin 1) q)
          then ((∑ k : Fin 2048, v3 (ix2 p k) * v5 (ix2 q k)) + v9 (ix2 p (0 : Fin 1))) + v11 (ix2 (0 : Fin 1) q)
          else pinf)) := by
  unfold k0_pay10
  rw [minimumf_apply, shapeCast_a_a1_apply]
  refine congrArg (min (v32 (ix2 p (0 : Fin 1))) ·) ?_
  refine (rowMin_apply _ _ _ _ p).trans ?_
  refine congrArg (fun f => (Finset.univ : Finset (Fin 1024)).fold min pinf f) (funext fun q => ?_)
  rw [select_apply, pay8_read, pay7_read, broadcast_apply, select_ite]
  rfl

/-- The carried minimum combined with the tile's: at row `p`, the minimum of the carried value and the fold of `min` from
    `+∞` over the columns `q` of the tile's term where the labels agree, `+∞` where they do not. -/
theorem pay10_apply (v3 v5 : Vec Ideal S1024x2048 .bf16) (v9 : Vec Ideal S1024x1 .f32) (v11 : Vec Ideal S1x1024 .f32)
    (v17 : Vec Ideal S1024x1 .i32) (v19 : Vec Ideal S1x1024 .i32) (v32 : Vec Ideal S1024x1 .f32) (p : Fin 1024) :
    k0_pay10 (F := Ideal) v3 v5 v9 v11 v17 v19 v32 (ix2 p (0 : Fin 1))
      = min (v32 (ix2 p (0 : Fin 1))) ((Finset.univ : Finset (Fin 1024)).fold min pinf (fun q =>
          if v17 (ix2 p (0 : Fin 1)) = v19 (ix2 (0 : Fin 1) q)
          then ((∑ k : Fin 2048, v3 (ix2 p k) * v5 (ix2 q k)) + v9 (ix2 p (0 : Fin 1))) + v11 (ix2 (0 : Fin 1) q)
          else pinf)) :=
  pay10_read v3 v5 v9 v11 v17 v19 v32 p

/-! ## The tile's maximum over the other-label columns -/

/-- Over vectors typed as float and integer vectors. -/
theorem pay9_read (v3 v5 : FVec Ideal S1024x2048 .bf16) (v9 : FVec Ideal S1024x1 .f32) (v11 : FVec Ideal S1x1024 .f32)
    (v17 : IVec S1024x1 32) (v19 : IVec S1x1024 32) (p : Fin 1024) :
    k0_pay9 (F := Ideal) v3 v5 v9 v11 v17 v19 (ix2 p (0 : Fin 1))
      = (Finset.univ : Finset (Fin 1024)).fold max ninf (fun q =>
          if v17 (ix2 p (0 : Fin 1)) = v19 (ix2 (0 : Fin 1) q) then ninf
          else ((∑ k : Fin 2048, v3 (ix2 p k) * v5 (ix2 q k)) + v9 (ix2 p (0 : Fin 1))) + v11 (ix2 (0 : Fin 1) q)) := by
  unfold k0_pay9
  rw [shapeCast_a_a1_apply]
  refine (rowMax_apply _ _ _ _ p).trans ?_
  refine congrArg (fun f => (Finset.univ : Finset (Fin 1024)).fold max ninf f) (funext fun q => ?_)
  rw [select_apply, pay8_read, pay7_read, broadcast_apply, select_ite]
  rfl

/-- At row `p`: the fold of `max` from `-∞` over the columns `q` of `-∞` where the labels agree, the tile's term where they
    do not. -/
theorem pay9_apply (v3 v5 : Vec Ideal S1024x2048 .bf16) (v9 : Vec Ideal S1024x1 .f32) (v11 : Vec Ideal S1x1024 .f32)
    (v17 : Vec Ideal S1024x1 .i32) (v19 : Vec Ideal S1x1024 .i32) (p : Fin 1024) :
    k0_pay9 (F := Ideal) v3 v5 v9 v11 v17 v19 (ix2 p (0 : Fin 1))
      = (Finset.univ : Finset (Fin 1024)).fold max ninf (fun q =>
          if v17 (ix2 p (0 : Fin 1)) = v19 (ix2 (0 : Fin 1) q) then ninf
          else ((∑ k : Fin 2048, v3 (ix2 p k) * v5 (ix2 q k)) + v9 (ix2 p (0 : Fin 1))) + v11 (ix2 (0 : Fin 1) q)) :=
  pay9_read v3 v5 v9 v11 v17 v19 p

/-! ## The stores of the carried values, and the epilogue -/

/-- The carried minimum is stored as it is. -/
theorem pay1_eq (v33 : FVec Ideal S1024x1 .f32) : k0_pay1 (F := Ideal) v33 = v33 := by
  unfold k0_pay1
  exact shapeCast_self _ _

/-- The carried maximum is combined with the tile's. -/
theorem pay2_apply (v31 : FVec Ideal S1024x1 .f32) (v37 : Vec Ideal S1024x1 .f32) (i : S1024x1.Idx) :
    k0_pay2 (F := Ideal) v31 v37 i = max (v37 i) (v31 i) := by
  unfold k0_pay2
  rw [shapeCast_self]
  rfl

/-- The distance from the carried minimum. -/
theorem pay3_apply (v45 : Vec Ideal S1024x1 .f32) (i : S1024x1.Idx) :
    k0_pay3 (F := Ideal) v45 i = Ideal.sqrt (max eps (m2 * v45 i)) := rfl

/-- The distance from the carried maximum. -/
theorem pay4_apply (v52 : Vec Ideal S1024x1 .f32) (i : S1024x1.Idx) :
    k0_pay4 (F := Ideal) v52 i = Ideal.sqrt (max eps (m2 * v52 i)) := rfl

/-- The carried minimum starts at `+∞`, -/
theorem pay5_apply (i : S1024x1.Idx) : k0_pay5 (F := Ideal) i = pinf := by
  unfold k0_pay5
  rw [shapeCast_self]
  rfl

/-- and the carried maximum at `-∞`. -/
theorem pay6_apply (i : S1024x1.Idx) : k0_pay6 (F := Ideal) i = ninf := by
  unfold k0_pay6
  rw [shapeCast_self]
  rfl

end Cert.Triplet.Pay

end
-- ==== Proof.Steps.lean ====
/-
  One tile's step of the running extrema, in the specification's words.

  When the blocks the kernel loaded are rows `col i ·` and `col j ·` of the data matrix, the half squared norms and the
  labels of those rows, the tile's term at `(p, q)` is `t (col i p) (col j q)`; so the minimum the kernel folds over the
  tile's columns is the specification's `bmin` of row `col i p` at tile `j`, the maximum its `bmax`, and the values the
  kernel carries on are the carried values combined with these.
-/
import proofs.«148254_j88089779241009_2_alg».proof.Proof.PayIdeal2
import proofs.«148254_j88089779241009_2_alg».proof.Proof.Spec

noncomputable section

namespace Cert.Triplet.Pay

open Cert.KernelIdeal Cert.KernelIdeal.Gen Cert.Triplet Idealize.ShloMosaic Idealize.ShloMosaic.ValueIdx
open scoped BigOperators

/-- The tile's term at `(p, q)` is `t` of the two rows. -/
theorem tile_term (x0 x1 : Vec Ideal S1024x2048 .bf16) (x2 : Vec Ideal S1024x1 .f32) (x3 : Vec Ideal S1x1024 .f32)
    (x4 : Vec Ideal S1024x1 .i32) (x5 : Vec Ideal S1x1024 .i32)
    (x : SX.Idx → EReal) (tg : ST.Idx → BitVec 32) (i j : ℕ)
    (h0 : ∀ (p : Fin 1024) (k : Fin 2048), x0 (ix2 p k) = x (ix2 (col i p) k))
    (h1 : ∀ (q : Fin 1024) (k : Fin 2048), x1 (ix2 q k) = x (ix2 (col j q) k))
    (h2 : ∀ p : Fin 1024, x2 (ix2 p (0 : Fin 1)) = hsq x (col i p))
    (h3 : ∀ q : Fin 1024, x3 (ix2 (0 : Fin 1) q) = hsq x (col j q))
    (h4 : ∀ p : Fin 1024, x4 (ix2 p (0 : Fin 1)) = tg (ix1 (col i p)))
    (h5 : ∀ q : Fin 1024, x5 (ix2 (0 : Fin 1) q) = tg (ix1 (col j q))) (p : Fin 1024) (q : Fin 1024) :
    ((∑ k : Fin 2048, x0 (ix2 p k) * x1 (ix2 q k)) + x2 (ix2 p (0 : Fin 1))) + x3 (ix2 (0 : Fin 1) q)
      = tK x (col i p) (col j q) := by
  have hs : (∑ k : Fin 2048, x0 (ix2 p k) * x1 (ix2 q k))
      = ∑ d : Fin 2048, x (ix2 (col i p) d) * x (ix2 (col j q) d) :=
    Finset.sum_congr rfl fun k _ => by rw [h0 p k, h1 q k]
  rw [hs, h2 p, h3 q]
  rfl

/-- The fold of `min` over the tile's same-label columns is the specification's. -/
theorem tile_min (x0 x1 : Vec Ideal S1024x2048 .bf16) (x2 : Vec Ideal S1024x1 .f32) (x3 : Vec Ideal S1x1024 .f32)
    (x4 : Vec Ideal S1024x1 .i32) (x5 : Vec Ideal S1x1024 .i32)
    (x : SX.Idx → EReal) (tg : ST.Idx → BitVec 32) (i j : ℕ)
    (h0 : ∀ (p : Fin 1024) (k : Fin 2048), x0 (ix2 p k) = x (ix2 (col i p) k))
    (h1 : ∀ (q : Fin 1024) (k : Fin 2048), x1 (ix2 q k) = x (ix2 (col j q) k))
    (h2 : ∀ p : Fin 1024, x2 (ix2 p (0 : Fin 1)) = hsq x (col i p))
    (h3 : ∀ q : Fin 1024, x3 (ix2 (0 : Fin 1) q) = hsq x (col j q))
    (h4 : ∀ p : Fin 1024, x4 (ix2 p (0 : Fin 1)) = tg (ix1 (col i p)))
    (h5 : ∀ q : Fin 1024, x5 (ix2 (0 : Fin 1) q) = tg (ix1 (col j q))) (p : Fin 1024) :
    (Finset.univ : Finset (Fin 1024)).fold min pinf (fun q =>
        if x4 (ix2 p (0 : Fin 1)) = x5 (ix2 (0 : Fin 1) q)
        then ((∑ k : Fin 2048, x0 (ix2 p k) * x1 (ix2 q k)) + x2 (ix2 p (0 : Fin 1))) + x3 (ix2 (0 : Fin 1) q)
        else pinf)
      = bmin x tg (col i p) j := by
  unfold bmin
  refine congrArg (fun f => (Finset.univ : Finset (Fin 1024)).fold min pinf f) (funext fun q => ?_)
  rw [tile_term x0 x1 x2 x3 x4 x5 x tg i j h0 h1 h2 h3 h4 h5 p q, h4 p, h5 q]

/-- The fold of `max` over the tile's other-label columns is the specification's. -/
theorem tile_max (x0 x1 : Vec Ideal S1024x2048 .bf16) (x2 : Vec Ideal S1024x1 .f32) (x3 : Vec Ideal S1x1024 .f32)
    (x4 : Vec Ideal S1024x1 .i32) (x5 : Vec Ideal S1x1024 .i32)
    (x : SX.Idx → EReal) (tg : ST.Idx → BitVec 32) (i j : ℕ)
    (h0 : ∀ (p : Fin 1024) (k : Fin 2048), x0 (ix2 p k) = x (ix2 (col i p) k))
    (h1 : ∀ (q : Fin 1024) (k : Fin 2048), x1 (ix2 q k) = x (ix2 (col j q) k))
    (h2 : ∀ p : Fin 1024, x2 (ix2 p (0 : Fin 1)) = hsq x (col i p))
    (h3 : ∀ q : Fin 1024, x3 (ix2 (0 : Fin 1) q) = hsq x (col j q))
    (h4 : ∀ p : Fin 1024, x4 (ix2 p (0 : Fin 1)) = tg (ix1 (col i p)))
    (h5 : ∀ q : Fin 1024, x5 (ix2 (0 : Fin 1) q) = tg (ix1 (col j q))) (p : Fin 1024) :
    (Finset.univ : Finset (Fin 1024)).fold max ninf (fun q =>
        if x4 (ix2 p (0 : Fin 1)) = x5 (ix2 (0 : Fin 1) q) then ninf
        else ((∑ k : Fin 2048, x0 (ix2 p k) * x1 (ix2 q k)) + x2 (ix2 p (0 : Fin 1))) + x3 (ix2 (0 : Fin 1) q))
      = bmax x tg (col i p) j := by
  unfold bmax
  refine congrArg (fun f => (Finset.univ : Finset (Fin 1024)).fold max ninf f) (funext fun q => ?_)
  rw [tile_term x0 x1 x2 x3 x4 x5 x tg i j h0 h1 h2 h3 h4 h5 p q, h4 p, h5 q]

/-- The carried minimum after the tile: the carried value combined with the tile's `bmin`. -/
theorem stepMin (x0 x1 : Vec Ideal S1024x2048 .bf16) (x2 : Vec Ideal S1024x1 .f32) (x3 : Vec Ideal S1x1024 .f32)
    (x4 : Vec Ideal S1024x1 .i32) (x5 : Vec Ideal S1x1024 .i32) (prev : Vec Ideal S1024x1 .f32)
    (x : SX.Idx → EReal) (tg : ST.Idx → BitVec 32) (i j : ℕ)
    (h0 : ∀ (p : Fin 1024) (k : Fin 2048), x0 (ix2 p k) = x (ix2 (col i p) k))
    (h1 : ∀ (q : Fin 1024) (k : Fin 2048), x1 (ix2 q k) = x (ix2 (col j q) k))
    (h2 : ∀ p : Fin 1024, x2 (ix2 p (0 : Fin 1)) = hsq x (col i p))
    (h3 : ∀ q : Fin 1024, x3 (ix2 (0 : Fin 1) q) = hsq x (col j q))
    (h4 : ∀ p : Fin 1024, x4 (ix2 p (0 : Fin 1)) = tg (ix1 (col i p)))
    (h5 : ∀ q : Fin 1024, x5 (ix2 (0 : Fin 1) q) = tg (ix1 (col j q))) (p : Fin 1024) :
    k0_pay1 (F := Ideal) (k0_pay10 x0 x1 x2 x3 x4 x5 prev) (ix2 p (0 : Fin 1))
      = min (prev (ix2 p (0 : Fin 1))) (bmin x tg (col i p) j) := by
  rw [pay1_eq]
  refine (pay10_apply x0 x1 x2 x3 x4 x5 prev p).trans ?_
  rw [tile_min x0 x1 x2 x3 x4 x5 x tg i j h0 h1 h2 h3 h4 h5 p]

/-- The carried maximum after the tile: the carried value combined with the tile's `bmax`. -/
theorem stepMax (x0 x1 : Vec Ideal S1024x2048 .bf16) (x2 : Vec Ideal S1024x1 .f32) (x3 : Vec Ideal S1x1024 .f32)
    (x4 : Vec Ideal S1024x1 .i32) (x5 : Vec Ideal S1x1024 .i32) (prev : Vec Ideal S1024x1 .f32)
    (x : SX.Idx → EReal) (tg : ST.Idx → BitVec 32) (i j : ℕ)
    (h0 : ∀ (p : Fin 1024) (k : Fin 2048), x0 (ix2 p k) = x (ix2 (col i p) k))
    (h1 : ∀ (q : Fin 1024) (k : Fin 2048), x1 (ix2 q k) = x (ix2 (col j q) k))
    (h2 : ∀ p : Fin 1024, x2 (ix2 p (0 : Fin 1)) = hsq x (col i p))
    (h3 : ∀ q : Fin 1024, x3 (ix2 (0 : Fin 1) q) = hsq x (col j q))
    (h4 : ∀ p : Fin 1024, x4 (ix2 p (0 : Fin 1)) = tg (ix1 (col i p)))
    (h5 : ∀ q : Fin 1024, x5 (ix2 (0 : Fin 1) q) = tg (ix1 (col j q))) (p : Fin 1024) :
    k0_pay2 (F := Ideal) (k0_pay9 x0 x1 x2 x3 x4 x5) prev (ix2 p (0 : Fin 1))
      = max (prev (ix2 p (0 : Fin 1))) (bmax x tg (col i p) j) := by
  refine (pay2_apply _ prev (ix2 p (0 : Fin 1))).trans ?_
  refine congrArg (max (prev (ix2 p (0 : Fin 1))) ·) ?_
  refine (pay9_apply x0 x1 x2 x3 x4 x5 p).trans ?_
  rw [tile_max x0 x1 x2 x3 x4 x5 x tg i j h0 h1 h2 h3 h4 h5 p]

/-- At the first tile the carried minimum starts from `+∞`. -/
theorem stepMin0 (x0 x1 : Vec Ideal S1024x2048 .bf16) (x2 : Vec Ideal S1024x1 .f32) (x3 : Vec Ideal S1x1024 .f32)
    (x4 : Vec Ideal S1024x1 .i32) (x5 : Vec Ideal S1x1024 .i32)
    (x : SX.Idx → EReal) (tg : ST.Idx → BitVec 32) (i j : ℕ)
    (h0 : ∀ (p : Fin 1024) (k : Fin 2048), x0 (ix2 p k) = x (ix2 (col i p) k))
    (h1 : ∀ (q : Fin 1024) (k : Fin 2048), x1 (ix2 q k) = x (ix2 (col j q) k))
    (h2 : ∀ p : Fin 1024, x2 (ix2 p (0 : Fin 1)) = hsq x (col i p))
    (h3 : ∀ q : Fin 1024, x3 (ix2 (0 : Fin 1) q) = hsq x (col j q))
    (h4 : ∀ p : Fin 1024, x4 (ix2 p (0 : Fin 1)) = tg (ix1 (col i p)))
    (h5 : ∀ q : Fin 1024, x5 (ix2 (0 : Fin 1) q) = tg (ix1 (col j q))) (p : Fin 1024) :
    k0_pay1 (F := Ideal) (k0_pay10 x0 x1 x2 x3 x4 x5 (k0_pay5 (F := Ideal))) (ix2 p (0 : Fin 1))
      = min pinf (bmin x tg (col i p) j) := by
  refine (stepMin x0 x1 x2 x3 x4 x5 (k0_pay5 (F := Ideal)) x tg i j h0 h1 h2 h3 h4 h5 p).trans ?_
  rw [pay5_apply]

/-- At the first tile the carried maximum starts from `-∞`. -/
theorem stepMax0 (x0 x1 : Vec Ideal S1024x2048 .bf16) (x2 : Vec Ideal S1024x1 .f32) (x3 : Vec Ideal S1x1024 .f32)
    (x4 : Vec Ideal S1024x1 .i32) (x5 : Vec Ideal S1x1024 .i32)
    (x : SX.Idx → EReal) (tg : ST.Idx → BitVec 32) (i j : ℕ)
    (h0 : ∀ (p : Fin 1024) (k : Fin 2048), x0 (ix2 p k) = x (ix2 (col i p) k))
    (h1 : ∀ (q : Fin 1024) (k : Fin 2048), x1 (ix2 q k) = x (ix2 (col j q) k))
    (h2 : ∀ p : Fin 1024, x2 (ix2 p (0 : Fin 1)) = hsq x (col i p))
    (h3 : ∀ q : Fin 1024, x3 (ix2 (0 : Fin 1) q) = hsq x (col j q))
    (h4 : ∀ p : Fin 1024, x4 (ix2 p (0 : Fin 1)) = tg (ix1 (col i p)))
    (h5 : ∀ q : Fin 1024, x5 (ix2 (0 : Fin 1) q) = tg (ix1 (col j q))) (p : Fin 1024) :
    k0_pay2 (F := Ideal) (k0_pay9 x0 x1 x2 x3 x4 x5) (k0_pay6 (F := Ideal)) (ix2 p (0 : Fin 1))
      = max ninf (bmax x tg (col i p) j) := by
  refine (stepMax x0 x1 x2 x3 x4 x5 (k0_pay6 (F := Ideal)) x tg i j h0 h1 h2 h3 h4 h5 p).trans ?_
  rw [pay6_apply]

end Cert.Triplet.Pay

end
-- ==== Proof.EntryVals.lean ====
/-
  What the host prepares before the kernel runs, over the extended reals.

  From the data matrix `x` (4096 rows of 2048 entries) and the labels the host computes, before the kernel is launched:
  minus half the squared norm of every row (the entrywise square, the row sum from zero, the scale by `-1/2`), laid out
  once as a column and once as a row; the labels laid out as a column and as a row; and `x` again in the narrower float
  format, which over the extended reals is `x` itself.
-/
import proofs.«148254_j88089779241009_2_alg».proof.Proof.Gen.KernelIdeal.Launch
import proofs.«148254_j88089779241009_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.Triplet.Entry

open Cert.KernelIdeal Cert.KernelIdeal.Gen Cert.Triplet Idealize.ShloMosaic Idealize.ShloMosaic.ValueIdx
open Idealize.ShloMosaic.StableHlo
open scoped BigOperators

/-! ## Two layouts of a vector -/

/-- A vector `[a]` cast to the column `[a, 1]` reads, at `(i, u)`, the vector at `i`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Minus half the squared norms, as the host computes them -/

/-- The vector the host computes from the data matrix: the constant `-1/2` times the row sums, from zero, of the
    entrywise squares. -/
def hvec (x : FVec Ideal S4096x2048 .f32) : FVec Ideal S4096 .f32 :=
  mulf (broadcastInDim S4096 ![] bcast_S_S4096 (constant (F := Ideal) S_ .f32 0xBF000000#32))
    (Host.reduceAdd (F := Ideal) (mulf x x) (constant (F := Ideal) S_ .f32 0x00000000#32) reducesTo_S4096x2048_S4096_d1 h_S_)

/-- At row `r` it is minus half the squared norm of row `r`. -/
theorem hvec_apply (x : FVec Ideal S4096x2048 .f32) (r : Fin 4096) : hvec x (ix1 r) = hsq x r := by
  unfold hvec hsq sqn
  rw [mulf_apply]
  refine congrArg₂ (· * ·) ?_ ?_
  · exact broadcastInDim_apply _ bcast_S_S4096 (constant (F := Ideal) S_ .f32 0xBF000000#32) (ix1 r) (fun a => a.elim0)
      (fun a => a.elim0)
  · generalize hy : mulf x x = y0
    simp only [Host.reduceAdd, Ideal.hostReduceAdd_def]
    rw [Ideal.hostReduceAdd_single reducesTo_S4096x2048_S4096_d1 (by decide)]
    refine congrArg₂ (· + ·) rfl (Finset.sum_congr rfl fun k _ => ?_)
    subst hy
    rw [mulf_apply]
    refine congrArg₂ (· * ·) ?_ ?_ <;>
      exact congrArg x (funext fun a => Fin.ext (by match a with | ⟨0, _⟩ => rfl | ⟨1, _⟩ => rfl))

/-! ## The buffers the kernel's windows read -/

variable (V : Valuation τ sig (Elt Ideal))

/-- The narrowed copy of the data matrix is the data matrix. -/
theorem entry_v8 :
    (after (List.flatten [hostOps0 (F := Ideal)]) V (Proc.devRef .tc main_v8) : S4096x2048.Idx → EReal)
      = V (Proc.devRef .tc main_arg0) := by
  simp only [hostOps0, List.flatten_cons, List.flatten_nil, List.append_nil]
  after_results
  rfl

/-- The column of half squared norms, as a term. -/
theorem entry_v4_term :
    (after (List.flatten [hostOps0 (F := Ideal)]) V (Proc.devRef .tc main_v4) : S4096x1.Idx → EReal)
      = shapeCast S4096x1 (hvec (V (Proc.devRef .tc main_arg0))) shapeCasts_S4096_S4096x1 := by
  simp only [hostOps0, List.flatten_cons, List.flatten_nil, List.append_nil]
  after_results
  rfl

/-- The row of half squared norms, as a term. -/
theorem entry_v5_term :
    (after (List.flatten [hostOps0 (F := Ideal)]) V (Proc.devRef .tc main_v5) : S1x4096.Idx → EReal)
      = shapeCast S1x4096 (hvec (V (Proc.devRef .tc main_arg0))) shapeCasts_S4096_S1x4096 := by
  simp only [hostOps0, List.flatten_cons, List.flatten_nil, List.append_nil]
  after_results
  rfl

/-- The column of labels, as a term. -/
theorem entry_v6_term :
    (after (List.flatten [hostOps0 (F := Ideal)]) V (Proc.devRef .tc main_v6) : S4096x1.Idx → BitVec 32)
      = shapeCast S4096x1 (V (Proc.devRef .tc main_arg1) : S4096.Idx → BitVec 32) shapeCasts_S4096_S4096x1 := by
  simp only [hostOps0, List.flatten_cons, List.flatten_nil, List.append_nil]
  after_results
  rfl

/-- The row of labels, as a term. -/
theorem entry_v7_term :
    (after (List.flatten [hostOps0 (F := Ideal)]) V (Proc.devRef .tc main_v7) : S1x4096.Idx → BitVec 32)
      = shapeCast S1x4096 (V (Proc.devRef .tc main_arg1) : S4096.Idx → BitVec 32) shapeCasts_S4096_S1x4096 := by
  simp only [hostOps0, List.flatten_cons, List.flatten_nil, List.append_nil]
  after_results
  rfl

/-- The column holds, at row `r`, minus half the squared norm of row `r` of the data matrix. -/
theorem entry_v4 (r : Fin 4096) :
    (after (List.flatten [hostOps0 (F := Ideal)]) V (Proc.devRef .tc main_v4) : S4096x1.Idx → EReal) (ix2 r (0 : Fin 1))
      = hsq (V (Proc.devRef .tc main_arg0)) r := by
  rw [entry_v4_term, shapeCast_col_apply]
  exact hvec_apply _ r

/-- The row holds it at column `r`. -/
theorem entry_v5 (r : Fin 4096) :
    (after (List.flatten [hostOps0 (F := Ideal)]) V (Proc.devRef .tc main_v5) : S1x4096.Idx → EReal) (ix2 (0 : Fin 1) r)
      = hsq (V (Proc.devRef .tc main_arg0)) r := by
  rw [entry_v5_term, shapeCast_a_1a_apply]
  exact hvec_apply _ r

/-- The label column holds, at row `r`, the label of row `r`. -/
theorem entry_v6 (r : Fin 4096) :
    (after (List.flatten [hostOps0 (F := Ideal)]) V (Proc.devRef .tc main_v6) : S4096x1.Idx → BitVec 32) (ix2 r (0 : Fin 1))
      = (V (Proc.devRef .tc main_arg1) : S4096.Idx → BitVec 32) (ix1 r) := by
  rw [entry_v6_term, shapeCast_col_apply]

/-- The label row holds it at column `r`. -/
theorem entry_v7 (r : Fin 4096) :
    (after (List.flatten [hostOps0 (F := Ideal)]) V (Proc.devRef .tc main_v7) : S1x4096.Idx → BitVec 32) (ix2 (0 : Fin 1) r)
      = (V (Proc.devRef .tc main_arg1) : S4096.Idx → BitVec 32) (ix1 r) := by
  rw [entry_v7_term, shapeCast_a_1a_apply]

end Cert.Triplet.Entry

end
-- ==== Proof.KI.Value1.lean ====
/- The kernel's values at the extended reals, point by point. At grid point t = 4 i + j the kernel holds the row tile i
   of the queries and the column tile j of the keys. After the point, row p of the first scratch buffer is the minimum of
   t r s over the same-label columns s of the tiles 0..j (r the p-th row of tile i), and the second the maximum over the
   other-label columns: by induction on j, the step being the tile's masked row minimum (maximum) folded into what the
   point before left. At j = 3 the two output blocks receive `√(max ε (-2 · m))` of them. -/
import proofs.«148254_j88089779241009_2_alg».proof.Proof.KI.Pieces
import proofs.«148254_j88089779241009_2_alg».proof.Proof.KI.Blocks
import proofs.«148254_j88089779241009_2_alg».proof.Proof.Steps
import proofs.«148254_j88089779241009_2_alg».proof.Proof.EntryVals

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Triplet Cert.Triplet.Pay Cert.Triplet.Entry

variable (m : (ℓ : Loc nD τ sig) → Buf (Elt Ideal) ℓ)

/-- The data matrix and the labels on core `c`, as the launch memory holds them. -/
abbrev xOf (c : Dev nD) : SX.Idx → EReal := (fun b => m (c, b)) (Proc.devRef .tc main_arg0)
abbrev tgOf (c : Dev nD) : ST.Idx → BitVec 32 := (fun b => m (c, b)) (Proc.devRef .tc main_arg1)

/-! ## The blocks the body loads, as rows of the data matrix, half squared norms and labels -/

theorem hb0 (c : Dev nD) (t : Fin cfg0.N) : ∀ (p : Fin 1024) (k : Fin 2048),
    (iblk m c 0 t : Vec Ideal S1024x2048 .bf16) (ix2 p k) = xOf m c (ix2 (col (t.val / 4) p) k) := fun p k =>
  (iblk0_apply m c t p k).trans (congrFun (entry_v8 (fun b => m (c, b))) _)

theorem hb1 (c : Dev nD) (t : Fin cfg0.N) : ∀ (q : Fin 1024) (k : Fin 2048),
    (iblk m c 1 t : Vec Ideal S1024x2048 .bf16) (ix2 q k) = xOf m c (ix2 (col (t.val % 4) q) k) := fun q k =>
  (iblk1_apply m c t q k).trans (congrFun (entry_v8 (fun b => m (c, b))) _)

theorem hb2 (c : Dev nD) (t : Fin cfg0.N) : ∀ p : Fin 1024,
    (iblk m c 2 t : Vec Ideal S1024x1 .f32) (ix2 p (0 : Fin 1)) = hsq (xOf m c) (col (t.val / 4) p) := fun p =>
  (iblk2_apply m c t p).trans (entry_v4 (fun b => m (c, b)) _)

theorem hb3 (c : Dev nD) (t : Fin cfg0.N) : ∀ q : Fin 1024,
    (iblk m c 3 t : Vec Ideal S1x1024 .f32) (ix2 (0 : Fin 1) q) = hsq (xOf m c) (col (t.val % 4) q) := fun q =>
  (iblk3_apply m c t q).trans (entry_v5 (fun b => m (c, b)) _)

theorem hb4 (c : Dev nD) (t : Fin cfg0.N) : ∀ p : Fin 1024,
    (iblk m c 4 t : Vec Ideal S1024x1 .i32) (ix2 p (0 : Fin 1)) = tgOf m c (ix1 (col (t.val / 4) p)) := fun p =>
  (iblk4_apply m c t p).trans (entry_v6 (fun b => m (c, b)) _)

theorem hb5 (c : Dev nD) (t : Fin cfg0.N) : ∀ q : Fin 1024,
    (iblk m c 5 t : Vec Ideal S1x1024 .i32) (ix2 (0 : Fin 1) q) = tgOf m c (ix1 (col (t.val % 4) q)) := fun q =>
  (iblk5_apply m c t q).trans (entry_v7 (fun b => m (c, b)) _)

/-! ## One point -/

/-- At the first column tile the scratch buffers are reset: the running minimum starts from `+∞`, the maximum from `-∞`. -/
theorem pointA (c : Dev nD) (t : Fin cfg0.N) (h0 : t.val % 4 = 0) (p : Fin 1024) :
    (outsAt0 m c t.val t.isLt).2.2.1 (ix2 p (0 : Fin 1)) = min pinf (bmin (xOf m c) (tgOf m c) (col (t.val / 4) p) (t.val % 4))
    ∧ (outsAt0 m c t.val t.isLt).2.2.2 (ix2 p (0 : Fin 1)) = max ninf (bmax (xOf m c) (tgOf m c) (col (t.val / 4) p) (t.val % 4)) := by
  rw [outsAt0_A m c t h0 (by omega)]
  dsimp only
  rw [sout0_A_0_eq, sout0_A_1_eq]
  exact ⟨stepMin0 (iblk m c 0 t) (iblk m c 1 t) (iblk m c 2 t) (iblk m c 3 t) (iblk m c 4 t) (iblk m c 5 t) (xOf m c) (tgOf m c) (t.val / 4) (t.val % 4) (hb0 m c t) (hb1 m c t) (hb2 m c t) (hb3 m c t) (hb4 m c t) (hb5 m c t) p, stepMax0 (iblk m c 0 t) (iblk m c 1 t) (iblk m c 2 t) (iblk m c 3 t) (iblk m c 4 t) (iblk m c 5 t) (xOf m c) (tgOf m c) (t.val / 4) (t.val % 4) (hb0 m c t) (hb1 m c t) (hb2 m c t) (hb3 m c t) (hb4 m c t) (hb5 m c t) p⟩

/-- At a later column tile the tile's row minimum (maximum) is folded into what the point before left. -/
theorem pointBC (c : Dev nD) (t : Fin cfg0.N) (h0 : ¬t.val % 4 = 0) (p : Fin 1024) :
    (outsAt0 m c t.val t.isLt).2.2.1 (ix2 p (0 : Fin 1))
      = min ((outsAt0 m c (t.val - 1) (Nat.lt_of_le_of_lt (Nat.sub_le _ _) t.isLt)).2.2.1 (ix2 p (0 : Fin 1)))
          (bmin (xOf m c) (tgOf m c) (col (t.val / 4) p) (t.val % 4))
    ∧ (outsAt0 m c t.val t.isLt).2.2.2 (ix2 p (0 : Fin 1))
      = max ((outsAt0 m c (t.val - 1) (Nat.lt_of_le_of_lt (Nat.sub_le _ _) t.isLt)).2.2.2 (ix2 p (0 : Fin 1)))
          (bmax (xOf m c) (tgOf m c) (col (t.val / 4) p) (t.val % 4)) := by
  by_cases h1 : t.val % 4 = 3
  · rw [outsAt0_C m c t h0 h1]
    dsimp only
    rw [sout0_C_0_eq, sout0_C_1_eq]
    exact ⟨stepMin (iblk m c 0 t) (iblk m c 1 t) (iblk m c 2 t) (iblk m c 3 t) (iblk m c 4 t) (iblk m c 5 t) _ (xOf m c) (tgOf m c) (t.val / 4) (t.val % 4) (hb0 m c t) (hb1 m c t) (hb2 m c t) (hb3 m c t) (hb4 m c t) (hb5 m c t) p, stepMax (iblk m c 0 t) (iblk m c 1 t) (iblk m c 2 t) (iblk m c 3 t) (iblk m c 4 t) (iblk m c 5 t) _ (xOf m c) (tgOf m c) (t.val / 4) (t.val % 4) (hb0 m c t) (hb1 m c t) (hb2 m c t) (hb3 m c t) (hb4 m c t) (hb5 m c t) p⟩
  · rw [outsAt0_B m c t h0 h1]
    dsimp only
    rw [sout0_B_0_eq, sout0_B_1_eq]
    exact ⟨stepMin (iblk m c 0 t) (iblk m c 1 t) (iblk m c 2 t) (iblk m c 3 t) (iblk m c 4 t) (iblk m c 5 t) _ (xOf m c) (tgOf m c) (t.val / 4) (t.val % 4) (hb0 m c t) (hb1 m c t) (hb2 m c t) (hb3 m c t) (hb4 m c t) (hb5 m c t) p, stepMax (iblk m c 0 t) (iblk m c 1 t) (iblk m c 2 t) (iblk m c 3 t) (iblk m c 4 t) (iblk m c 5 t) _ (xOf m c) (tgOf m c) (t.val / 4) (t.val % 4) (hb0 m c t) (hb1 m c t) (hb2 m c t) (hb3 m c t) (hb4 m c t) (hb5 m c t) p⟩

/-! ## The invariant over the column tiles -/

theorem mpos_succ (x : SX.Idx → EReal) (tg : ST.Idx → BitVec 32) (r : Fin 4096) (n : ℕ) :
    mpos x tg r (n + 1) = min (mpos x tg r n) (bmin x tg r n) := rfl
theorem mneg_succ (x : SX.Idx → EReal) (tg : ST.Idx → BitVec 32) (r : Fin 4096) (n : ℕ) :
    mneg x tg r (n + 1) = max (mneg x tg r n) (bmax x tg r n) := rfl

/-- After point `n` the scratch buffers hold the running minimum and maximum over the column tiles `0 .. n % 4`. -/
theorem scratch_inv (c : Dev nD) : ∀ (n : ℕ) (hn : n < cfg0.N) (p : Fin 1024),
    (outsAt0 m c n hn).2.2.1 (ix2 p (0 : Fin 1)) = mpos (xOf m c) (tgOf m c) (col (n / 4) p) (n % 4 + 1)
    ∧ (outsAt0 m c n hn).2.2.2 (ix2 p (0 : Fin 1)) = mneg (xOf m c) (tgOf m c) (col (n / 4) p) (n % 4 + 1) := by
  intro n
  induction n with
  | zero =>
    intro hn p
    obtain ⟨e0, e1⟩ := pointA m c ⟨0, hn⟩ rfl p
    exact ⟨e0, e1⟩
  | succ n ih =>
    intro hn p
    by_cases h0 : (n + 1) % 4 = 0
    · obtain ⟨e0, e1⟩ := pointA m c ⟨n + 1, hn⟩ h0 p
      dsimp only at e0 e1
      rw [e0, e1, h0]
      exact ⟨rfl, rfl⟩
    · obtain ⟨e0, e1⟩ := pointBC m c ⟨n + 1, hn⟩ h0 p
      dsimp only at e0 e1
      simp only [Nat.add_sub_cancel] at e0 e1
      obtain ⟨i0, i1⟩ := ih (Nat.lt_of_succ_lt hn) p
      have hd : n / 4 = (n + 1) / 4 := by omega
      have hm : n % 4 + 1 = (n + 1) % 4 := by omega
      rw [e0, e1, i0, i1, hd, hm]
      exact ⟨rfl, rfl⟩

/-! ## The output blocks at the last column tile -/

/-- Row `p` of the first output block written at a point of the last column tile is the distance to the farthest row
    of the same label, -/
theorem out6_val (c : Dev nD) (t : Fin cfg0.N) (h1 : t.val % 4 = 3) (p : Fin 1024) :
    (outsAt0 m c t.val t.isLt).1 (ix2 p (0 : Fin 1)) = apK (xOf m c) (tgOf m c) (col (t.val / 4) p) := by
  have hs := (scratch_inv m c t.val t.isLt p).1
  rw [outsAt0_C m c t (by omega) h1] at hs ⊢
  dsimp only at hs ⊢
  rw [sout0_C_0_eq] at hs
  rw [out0_C_6_eq, pay3_apply, hs, h1]
  rfl

/-- and of the second the distance to the nearest row of another label. -/
theorem out7_val (c : Dev nD) (t : Fin cfg0.N) (h1 : t.val % 4 = 3) (p : Fin 1024) :
    (outsAt0 m c t.val t.isLt).2.1 (ix2 p (0 : Fin 1)) = anK (xOf m c) (tgOf m c) (col (t.val / 4) p) := by
  have hs := (scratch_inv m c t.val t.isLt p).2
  rw [outsAt0_C m c t (by omega) h1] at hs ⊢
  dsimp only at hs ⊢
  rw [sout0_C_1_eq] at hs
  rw [out0_C_7_eq, pay4_apply, hs, h1]
  rfl

end Cert.KernelIdeal.GenH

end
-- ==== Proof.KI.Value2.lean ====
/- The two result columns after the run. What a point of the last column tile writes back is a block of ONE function of
   the argument arrays - row r of the first column is the distance from row r to the farthest row of its label, of the
   second the distance to the nearest row of another label - and the four row tiles cover the 4096 rows. -/
import proofs.«148254_j88089779241009_2_alg».proof.Proof.KI.Value1

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Triplet Cert.Triplet.Pay Cert.Triplet.Entry

variable (m : (ℓ : Loc nD τ sig) → Buf (Elt Ideal) ℓ)

/-- The two result columns as functions of the arguments. -/
def G6 (c : Dev nD) : S4096x1.Idx → EReal := fun i => apK (xOf m c) (tgOf m c) ⟨(i 0).val, (i 0).isLt⟩
def G7 (c : Dev nD) : S4096x1.Idx → EReal := fun i => anK (xOf m c) (tgOf m c) ⟨(i 0).val, (i 0).isLt⟩

theorem G6_apply (c : Dev nD) (r : Fin 4096) : G6 m c (ix2 r (0 : Fin 1)) = apK (xOf m c) (tgOf m c) r := rfl
theorem G7_apply (c : Dev nD) (r : Fin 4096) : G7 m c (ix2 r (0 : Fin 1)) = anK (xOf m c) (tgOf m c) r := rfl

/-- The output blocks at any index of the block. -/
theorem out6_val' (c : Dev nD) (t : Fin cfg0.N) (h1 : t.val % 4 = 3) (j : S1024x1.Idx) :
    (outsAt0 m c t.val t.isLt).1 j = apK (xOf m c) (tgOf m c) (col (t.val / 4) ⟨(j 0).val, (j 0).isLt⟩) := by
  obtain ⟨p, q, rfl⟩ : ∃ (p : Fin 1024) (q : Fin 1), j = ix2 p q := ⟨j 0, j 1, eq_ix2 j⟩
  obtain rfl : q = 0 := Subsingleton.elim _ _
  exact out6_val m c t h1 p

theorem out7_val' (c : Dev nD) (t : Fin cfg0.N) (h1 : t.val % 4 = 3) (j : S1024x1.Idx) :
    (outsAt0 m c t.val t.isLt).2.1 j = anK (xOf m c) (tgOf m c) (col (t.val / 4) ⟨(j 0).val, (j 0).isLt⟩) := by
  obtain ⟨p, q, rfl⟩ : ∃ (p : Fin 1024) (q : Fin 1), j = ix2 p q := ⟨j 0, j 1, eq_ix2 j⟩
  obtain rfl : q = 0 := Subsingleton.elim _ _
  exact out7_val m c t h1 p

/-- An index of result column 6 lies in point `t`'s block iff its row lies in the point's row tile. -/
theorem mem_blk6 (t : Fin cfg0.N) (i : S4096x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v9_0).slice (win0_6.rect t)).set ↔ _
  rw [View.set_slice_whole, Rect.mem_set_unit]
  exact Iff.rfl

/-- Every row is in the block of the last-column-tile point of its row tile. -/
theorem cover6 (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  have hN : cfg0.N = 16 := N_0
  let t : Fin cfg0.N := ⟨4 * ((i 0).val / 1024) + 3, by omega⟩
  have htv : t.val = 4 * ((i 0).val / 1024) + 3 := rfl
  refine ⟨t, (flush0_6 t).mpr (by omega), ?_⟩
  rw [mem_blk6]
  obtain ⟨-, -, -, -, -, -, -, -, -, -, -, -, e0, e1, -⟩ := idx_facts t
  intro a
  match a with
  | ⟨0, _⟩ =>
    show win0_6.index t (0 : Fin 2) * 1024 ≤ (i 0).val ∧ (i 0).val < win0_6.index t (0 : Fin 2) * 1024 + 1024
    rw [e0, htv]; omega
  | ⟨1, _⟩ =>
    show win0_6.index t (1 : Fin 2) * 1 ≤ (i 1).val ∧ (i 1).val < win0_6.index t (1 : Fin 2) * 1 + 1
    rw [e1]; omega

/-- What a point of the last column tile writes back is its block of `G6`. -/
theorem flushed_eq6 (c : Dev nD) (t : Fin cfg0.N) (hf : (cfg0.win 6).flush t = true) :
    (dats m 0 c).flushed 6 t = ((cfg0.win 6).blk t).view.read (Elt Ideal) (G6 m c) := by
  have h3 : t.val % 4 = 3 := (flush0_6 t).mp hf
  have ht := t_lt t
  show (cfg0.win 6).cut (grid0.coords t) ((dats m 0 c).after 6 t) = _
  rw [after0_6]
  funext j
  show (outsAt0 m c t.val t.isLt).1 j = G6 m c (((cfg0.win 6).blk t).view.emb j)
  refine (out6_val' m c t h3 j).trans ?_
  unfold G6
  refine congrArg _ (Fin.ext ?_)
  obtain ⟨-, -, -, -, -, -, -, -, -, -, -, -, e0, e1, -⟩ := idx_facts t
  show (col (t.val / 4) ⟨(j 0).val, (j 0).isLt⟩).val = win0_6.index t (0 : Fin 2) * 1024 + 1 * (j 0).val
  rw [col_val _ (by omega), e0]
  show 1024 * (t.val / 4) + (j 0).val = t.val / 4 * 1024 + 1 * (j 0).val
  omega

/-- THE RESULT COLUMN after the run. -/
theorem final6 (c : Dev nD) : (dats m 0 c).arrAt 6 cfg0.N = G6 m c :=
  (dats m 0 c).arrAt_eq_of_cover 6 (G6 m c) (fun t hf => flushed_eq6 m c t hf) cover6

/-- An index of result column 7 lies in point `t`'s block iff its row lies in the point's row tile. -/
theorem mem_blk7 (t : Fin cfg0.N) (i : S4096x1.Idx) :
    i ∈ ((cfg0.win 7).blk t).view.set ↔ ∀ a : Fin 2, win0_7.index t a * S1024x1.size a ≤ (i a).val ∧ (i a).val < win0_7.index t a * S1024x1.size a + S1024x1.size a := by
  show i ∈ ((View.whole main_v9_1).slice (win0_7.rect t)).set ↔ _
  rw [View.set_slice_whole, Rect.mem_set_unit]
  exact Iff.rfl

/-- Every row is in the block of the last-column-tile point of its row tile. -/
theorem cover7 (i : S4096x1.Idx) : ∃ t : Fin cfg0.N, (cfg0.win 7).flush t = true ∧ i ∈ ((cfg0.win 7).blk t).view.set := by
  have hi0 : (i 0).val < 4096 := (i 0).isLt
  have hi1 : (i 1).val < 1 := (i 1).isLt
  have hN : cfg0.N = 16 := N_0
  let t : Fin cfg0.N := ⟨4 * ((i 0).val / 1024) + 3, by omega⟩
  have htv : t.val = 4 * ((i 0).val / 1024) + 3 := rfl
  refine ⟨t, (flush0_7 t).mpr (by omega), ?_⟩
  rw [mem_blk7]
  obtain ⟨-, -, -, -, -, -, -, -, -, -, -, -, -, -, e0, e1⟩ := idx_facts t
  intro a
  match a with
  | ⟨0, _⟩ =>
    show win0_7.index t (0 : Fin 2) * 1024 ≤ (i 0).val ∧ (i 0).val < win0_7.index t (0 : Fin 2) * 1024 + 1024
    rw [e0, htv]; omega
  | ⟨1, _⟩ =>
    show win0_7.index t (1 : Fin 2) * 1 ≤ (i 1).val ∧ (i 1).val < win0_7.index t (1 : Fin 2) * 1 + 1
    rw [e1]; omega

/-- What a point of the last column tile writes back is its block of `G7`. -/
theorem flushed_eq7 (c : Dev nD) (t : Fin cfg0.N) (hf : (cfg0.win 7).flush t = true) :
    (dats m 0 c).flushed 7 t = ((cfg0.win 7).blk t).view.read (Elt Ideal) (G7 m c) := by
  have h3 : t.val % 4 = 3 := (flush0_7 t).mp hf
  have ht := t_lt t
  show (cfg0.win 7).cut (grid0.coords t) ((dats m 0 c).after 7 t) = _
  rw [after0_7]
  funext j
  show (outsAt0 m c t.val t.isLt).2.1 j = G7 m c (((cfg0.win 7).blk t).view.emb j)
  refine (out7_val' m c t h3 j).trans ?_
  unfold G7
  refine congrArg _ (Fin.ext ?_)
  obtain ⟨-, -, -, -, -, -, -, -, -, -, -, -, -, -, e0, e1⟩ := idx_facts t
  show (col (t.val / 4) ⟨(j 0).val, (j 0).isLt⟩).val = win0_7.index t (0 : Fin 2) * 1024 + 1 * (j 0).val
  rw [col_val _ (by omega), e0]
  show 1024 * (t.val / 4) + (j 0).val = t.val / 4 * 1024 + 1 * (j 0).val
  omega

/-- THE RESULT COLUMN after the run. -/
theorem final7 (c : Dev nD) : (dats m 0 c).arrAt 7 cfg0.N = G7 m c :=
  (dats m 0 c).arrAt_eq_of_cover 7 (G7 m c) (fun t hf => flushed_eq7 m c t hf) cover7

end Cert.KernelIdeal.GenH

end
-- ==== Proof.RefTail.lean ====
/-
  The end of the computation, common to both programs: from the vector of distances to the farthest same-label row
  (`ap`) and the vector of distances to the nearest other-label row (`an`),

    loss = (0 + ∑ over the rows of max (ap - an + 0.3) 0) / 4096,
    prec = (0 + ∑ over the rows of [an > ap]) / 4096,

  written with the operations and literals of the printed program, as two functions of the pair of vectors.
-/
import proofs.«148254_j88089779241009_2_alg».proof.Proof.Spec
import Idealize.ShloMosaic.PureOps

noncomputable section

namespace Cert.Triplet

open Idealize.ShloMosaic

/-- The scalar shape. -/
abbrev S0 : Shape := ⟨0, ![]⟩

theorem bcast_S0_ST : S0.BroadcastsInDim ST (![] : Fin 0 → Fin ST.rank) := by decide
theorem reducesTo_ST_S0 : ST.ReducesTo [0] S0 := by decide
theorem h_S0 : 0 < S0.numel := by decide

/-- The mean over the rows of the margin loss `max (ap - an + 0.3) 0`. -/
def lossT (ap an : FVec Ideal ST .f32) : FVec Ideal S0 .f32 :=
  Host.divf (F := Ideal) (φ := .f32)
    (Host.reduceAdd (F := Ideal) (φ := .f32)
      (maximumf (F := Ideal) (φ := .f32)
        (addf (F := Ideal) (φ := .f32) (subf (F := Ideal) (φ := .f32) ap an)
          (broadcastInDim ST ![] bcast_S0_ST (constant (F := Ideal) S0 .f32 0x3E99999A#32)))
        (broadcastInDim ST ![] bcast_S0_ST (constant (F := Ideal) S0 .f32 0x00000000#32)))
      (constant (F := Ideal) S0 .f32 0x00000000#32) reducesTo_ST_S0 h_S0)
    (constant (F := Ideal) S0 .f32 0x45800000#32)

/-- The fraction of the rows whose nearest other-label row is farther than their farthest same-label row. -/
def precT (ap an : FVec Ideal ST .f32) : FVec Ideal S0 .f32 :=
  Host.divf (F := Ideal) (φ := .f32)
    (Host.reduceAdd (F := Ideal) (φ := .f32)
      (uitofp (F := Ideal) .f32 (cmpf (F := Ideal) (φ := .f32) .ogt an ap))
      (constant (F := Ideal) S0 .f32 0x00000000#32) reducesTo_ST_S0 h_S0)
    (constant (F := Ideal) S0 .f32 0x45800000#32)

end Cert.Triplet

end
-- ==== Proof.TailVals.lean ====
/-
  What the host leaves after the kernel has run, over the extended reals.

  From the two columns the kernel wrote (per row, the distance to the farthest same-label row and to the nearest
  other-label row) the host takes the two vectors, and computes the mean margin loss and the precision: the common
  end of the computation, applied to those two vectors. The host writes neither argument of the program, before the
  kernel or after it.
-/
import proofs.«148254_j88089779241009_2_alg».proof.Proof.Gen.KernelIdeal.Launch
import proofs.«148254_j88089779241009_2_alg».proof.Proof.Spec
import proofs.«148254_j88089779241009_2_alg».proof.Proof.RefTail
import Idealize.ShloMosaic.Lib.StableHlo.Run
import Idealize.ShloMosaic.Lib.ValueIdx
import Idealize.ShloMosaic.Lib.Pipeline.Value

noncomputable section

namespace Cert.Triplet.Entry

open Cert.KernelIdeal Cert.KernelIdeal.Gen Cert.Triplet Idealize.ShloMosaic Idealize.ShloMosaic.ValueIdx
open Idealize.ShloMosaic.StableHlo

/-! ## A column read as a vector -/

/-- A column `[a, 1]` cast to the vector `[a]` reads, at `i`, the column at row `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- So a column whose rows are the entries of a vector `ap` is, cast to a vector, `ap`. -/
theorem col_eq (Y : S4096x1.Idx → EReal) (ap : ST.Idx → EReal)
    (hap : ∀ r : Fin 4096, Y (ix2 r (0 : Fin 1)) = ap (ix1 r)) :
    shapeCast S4096 Y shapeCasts_S4096x1_S4096 = ap := by
  funext i
  obtain ⟨r, rfl⟩ : ∃ r : Fin 4096, i = ix1 r := ⟨i 0, eq_ix1 i⟩
  rw [shapeCast_a1_a_apply]
  exact hap r

/-! ## The two results -/

variable (W : Valuation τ sig (Elt Ideal))

/-- The loss buffer, as the end of the computation applied to the two columns cast to vectors. -/
theorem tail_v18_term :
    (after (List.flatten [hostOps1 (F := Ideal)]) W (Proc.devRef .tc main_v18) : S_.Idx → EReal)
      = lossT (shapeCast S4096 (W (Proc.devRef .tc main_v9_0) : S4096x1.Idx → EReal) shapeCasts_S4096x1_S4096)
          (shapeCast S4096 (W (Proc.devRef .tc main_v9_1) : S4096x1.Idx → EReal) shapeCasts_S4096x1_S4096) := by
  simp only [hostOps1, List.flatten_cons, List.flatten_nil, List.append_nil]
  after_results
  rfl

/-- The precision buffer likewise. -/
theorem tail_v22_term :
    (after (List.flatten [hostOps1 (F := Ideal)]) W (Proc.devRef .tc main_v22) : S_.Idx → EReal)
      = precT (shapeCast S4096 (W (Proc.devRef .tc main_v9_0) : S4096x1.Idx → EReal) shapeCasts_S4096x1_S4096)
          (shapeCast S4096 (W (Proc.devRef .tc main_v9_1) : S4096x1.Idx → EReal) shapeCasts_S4096x1_S4096) := by
  simp only [hostOps1, List.flatten_cons, List.flatten_nil, List.append_nil]
  after_results
  rfl

/-- The loss, from any two vectors the kernel's two columns hold row by row. -/
theorem tail_v18' (ap an : ST.Idx → EReal)
    (hap : ∀ r : Fin 4096, (W (Proc.devRef .tc main_v9_0) : S4096x1.Idx → EReal) (ix2 r (0 : Fin 1)) = ap (ix1 r))
    (han : ∀ r : Fin 4096, (W (Proc.devRef .tc main_v9_1) : S4096x1.Idx → EReal) (ix2 r (0 : Fin 1)) = an (ix1 r)) :
    (after (List.flatten [hostOps1 (F := Ideal)]) W (Proc.devRef .tc main_v18) : S_.Idx → EReal) = lossT ap an := by
  rw [tail_v18_term, col_eq _ ap hap, col_eq _ an han]

/-- The precision, from any two vectors the kernel's two columns hold row by row. -/
theorem tail_v22' (ap an : ST.Idx → EReal)
    (hap : ∀ r : Fin 4096, (W (Proc.devRef .tc main_v9_0) : S4096x1.Idx → EReal) (ix2 r (0 : Fin 1)) = ap (ix1 r))
    (han : ∀ r : Fin 4096, (W (Proc.devRef .tc main_v9_1) : S4096x1.Idx → EReal) (ix2 r (0 : Fin 1)) = an (ix1 r)) :
    (after (List.flatten [hostOps1 (F := Ideal)]) W (Proc.devRef .tc main_v22) : S_.Idx → EReal) = precT ap an := by
  rw [tail_v22_term, col_eq _ ap hap, col_eq _ an han]

/-- The loss, from the two columns read row by row. -/
theorem tail_v18 :
    (after (List.flatten [hostOps1 (F := Ideal)]) W (Proc.devRef .tc main_v18) : S_.Idx → EReal)
      = lossT (fun i => (W (Proc.devRef .tc main_v9_0) : S4096x1.Idx → EReal) (ix2 (i 0) (0 : Fin 1)))
          (fun i => (W (Proc.devRef .tc main_v9_1) : S4096x1.Idx → EReal) (ix2 (i 0) (0 : Fin 1))) :=
  tail_v18' W _ _ (fun _ => rfl) (fun _ => rfl)

/-- The precision, from the two columns read row by row. -/
theorem tail_v22 :
    (after (List.flatten [hostOps1 (F := Ideal)]) W (Proc.devRef .tc main_v22) : S_.Idx → EReal)
      = precT (fun i => (W (Proc.devRef .tc main_v9_0) : S4096x1.Idx → EReal) (ix2 (i 0) (0 : Fin 1)))
          (fun i => (W (Proc.devRef .tc main_v9_1) : S4096x1.Idx → EReal) (ix2 (i 0) (0 : Fin 1))) :=
  tail_v22' W _ _ (fun _ => rfl) (fun _ => rfl)

/-! ## The arguments are never written -/

/-- The operations after the kernel leave the data matrix … -/
theorem tail_arg0 :
    after (List.flatten [hostOps1 (F := Ideal)]) W (Proc.devRef .tc main_arg0) = W (Proc.devRef .tc main_arg0) := by
  simp only [hostOps1, List.flatten_cons, List.flatten_nil, List.append_nil]
  after_results

/-- … and the labels as they were; -/
theorem tail_arg1 :
    after (List.flatten [hostOps1 (F := Ideal)]) W (Proc.devRef .tc main_arg1) = W (Proc.devRef .tc main_arg1) := by
  simp only [hostOps1, List.flatten_cons, List.flatten_nil, List.append_nil]
  after_results

/-- so do the operations before it, the data matrix … -/
theorem pre_arg0 :
    after (List.flatten [hostOps0 (F := Ideal)]) W (Proc.devRef .tc main_arg0) = W (Proc.devRef .tc main_arg0) := by
  simp only [hostOps0, List.flatten_cons, List.flatten_nil, List.append_nil]
  after_results

/-- … and the labels. -/
theorem pre_arg1 :
    after (List.flatten [hostOps0 (F := Ideal)]) W (Proc.devRef .tc main_arg1) = W (Proc.devRef .tc main_arg1) := by
  simp only [hostOps0, List.flatten_cons, List.flatten_nil, List.append_nil]
  after_results

end Cert.Triplet.Entry

end
-- ==== Proof.KI.Final.lean ====
/- The kernel's run at the extended reals with its two results named: the two result columns end at the distances of
   each row to its farthest same-label row and to its nearest other-label row, and the host operations after the kernel
   turn them into the mean margin loss and the precision by the same operations the reference applies. -/
import proofs.«148254_j88089779241009_2_alg».proof.Proof.KI.Frame
import proofs.«148254_j88089779241009_2_alg».proof.Proof.KI.Value2
import proofs.«148254_j88089779241009_2_alg».proof.Proof.TailVals
import proofs.«148254_j88089779241009_2_alg».proof.Proof.RefTail

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Triplet Cert.Triplet.Entry

variable (m : (ℓ : Loc nD τ sig) → Buf (Elt Ideal) ℓ) (ρ : Dev nD → PrngReg)

theorem mem_v18 : main_v18 ∈ Pipeline.restRefs sig spec0 := Pipeline.mem_restRefs_of main_v18 rfl (by decide)
theorem mem_v22 : main_v22 ∈ Pipeline.restRefs sig spec0 := Pipeline.mem_restRefs_of main_v22 rfl (by decide)

/-- The first result column at the region's exit, row by row. -/
theorem v9_0_at (c : Dev nD) (r : Fin 4096) :
    (VN m c (Proc.devRef .tc main_v9_0) : S4096x1.Idx → EReal) (ix2 r (0 : Fin 1)) = apV (xOf m c) (tgOf m c) (ix1 r) := by
  rw [VN_v9_0, final6]; rfl

/-- The second. -/
theorem v9_1_at (c : Dev nD) (r : Fin 4096) :
    (VN m c (Proc.devRef .tc main_v9_1) : S4096x1.Idx → EReal) (ix2 r (0 : Fin 1)) = anV (xOf m c) (tgOf m c) (ix1 r) := by
  rw [VN_v9_1, final7]; rfl

/-- Every weakly fair execution of the idealized kernel's @main terminates with the loss and the precision at the shared
    tail of the two distance vectors, the arguments unchanged. -/
theorem run_value : θ_run (defs (F := Ideal)) (onTc (τ := τ) (main (F := Ideal))) ⟨m, fun _ => 0, ρ⟩ (fun r => ∀ c : Dev nD,
      r.2.mem ((c.tc : Thread nD τ).loc main_v18) = lossT (apV (m ((c.tc : Thread nD τ).loc main_arg0)) (m ((c.tc : Thread nD τ).loc main_arg1))) (anV (m ((c.tc : Thread nD τ).loc main_arg0)) (m ((c.tc : Thread nD τ).loc main_arg1)))
      ∧ r.2.mem ((c.tc : Thread nD τ).loc main_v22) = precT (apV (m ((c.tc : Thread nD τ).loc main_arg0)) (m ((c.tc : Thread nD τ).loc main_arg1))) (anV (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v18 mem_v18).trans (tail_v18' (VN m c) _ _ (v9_0_at m c) (v9_1_at m c)),
     ((h c).2 main_v22 mem_v22).trans (tail_v22' (VN m c) _ _ (v9_0_at m c) (v9_1_at m c)),
     ((h c).2 main_arg0 mem_arg0).trans ((kept_post_arg0 (VN m c)).trans ((VN_other m c main_arg0 (by decide) (by decide)).trans (kept_pre_arg0 (fun b => m (c, b))))),
     ((h c).2 main_arg1 mem_arg1).trans ((kept_post_arg1 (VN m c)).trans ((VN_other m c main_arg1 (by decide) (by decide)).trans (kept_pre_arg1 (fun b => m (c, b)))))⟩)
    (run_main m ρ)

end Cert.KernelIdeal.GenH

end
-- ==== Proof.RefMath.lean ====
/-
  The mathematics joining the two arrangements of the pairwise distances.

  One side keeps, per row `r`, the minimum (over the same-label rows) and the maximum (over the other-label
  rows) of `t r s = x_r · x_s - ‖x_r‖²/2 - ‖x_s‖²/2`, folding the columns in four tiles, and only then applies
  `g y = √(max ε (-2 · y))`. The other side forms `d r s = (‖x_r‖² + ‖x_s‖²) - 2 · (x_r · x_s)`, applies
  `√(max ε ·)` to every entry and then takes the maximum over the same-label rows and the minimum over the others.

  For real entries `-2 · t r s = d r s`. The function `g` is antitone on the extended reals, so it turns a
  minimum into a maximum and conversely; `g (+∞) = √ε` and `g (-∞) = +∞`. The four tiles of 1024 columns cover
  the 4096 columns. On the same-label side the masked entries contribute `√ε` on one side and `-∞` on the other;
  both are dominated by the diagonal entry `s = r`, which always has the row's own label and is at least `√ε`.
-/
import proofs.«148254_j88089779241009_2_alg».proof.Proof.Spec
import Idealize.ShloMosaic.PureOps.Ideal.Laws

noncomputable section

namespace Cert.Triplet

open Idealize.ShloMosaic Idealize.ShloMosaic.ValueIdx
open scoped BigOperators

/-- The literal two. -/
def two : EReal := Ideal.ofBits .f32 0x40000000#32

/-! ### The literals as extended reals -/

theorem pinf_eq : pinf = ⊤ := by simp [pinf, Ideal.ofBits, Ideal.ieee]
theorem ninf_eq : ninf = ⊥ := by simp [ninf, Ideal.ofBits, Ideal.ieee]
theorem z0_eq : z0 = 0 := Ideal.ofBits_zero_f32
theorem m2_eq : m2 = ((-2 : ℝ) : EReal) := by simp [m2, Ideal.ofBits, Ideal.ieee, -EReal.coe_mul]; norm_num
theorem mh_eq : mh = ((-(1 / 2) : ℝ) : EReal) := by simp [mh, Ideal.ofBits, Ideal.ieee, -EReal.coe_mul]; norm_num
theorem two_eq : two = ((2 : ℝ) : EReal) := by simp [two, Ideal.ofBits, Ideal.ieee, -EReal.coe_mul]; norm_num

/-! ### Real entries: `-2 · t r s` is the squared distance -/

/-- A finite sum of reals, read in the extended reals, is the sum of the readings. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The squared distance of rows `r` and `s` as the sum of the squared norms minus twice the inner product. -/
def dist2 (x : SX.Idx → EReal) (r s : Fin 4096) : EReal := (sqn x r + sqn x s) - two * dotp x r s

theorem m2_mul_tK (x : SX.Idx → EReal) (hx : ∀ i, ∃ a : ℝ, x i = (a : EReal)) (r s : Fin 4096) :
    m2 * tK x r s = dist2 x r s := by
  choose X hX using hx
  have hA : ∀ r, sqn x r = ((∑ d : Fin 2048, X (ix2 r d) * X (ix2 r d) : ℝ) : EReal) := by
    intro r
    unfold sqn
    rw [z0_eq, zero_add, ← coe_sum]
    exact Finset.sum_congr rfl fun d _ => by rw [hX, EReal.coe_mul]
  have hD : dotp x r s = ((∑ d : Fin 2048, X (ix2 r d) * X (ix2 s d) : ℝ) : EReal) := by
    unfold dotp
    rw [← coe_sum]
    exact Finset.sum_congr rfl fun d _ => by rw [hX, hX, EReal.coe_mul]
  unfold tK hsq dist2
  simp only [hA, hD, m2_eq, mh_eq, two_eq, ← EReal.coe_mul, ← EReal.coe_add, ← EReal.coe_sub]
  congr 1
  ring

/-! ### The square root and `g` -/

theorem sqrt_mono : Monotone Ideal.sqrt := by
  intro a b hab
  induction a using EReal.rec with
  | bot => rw [Ideal.sqrt_bot]; exact bot_le
  | top =>
    have hb : b = ⊤ := top_le_iff.mp hab
    rw [hb]
  | coe a =>
    induction b using EReal.rec with
    | bot => exact absurd hab (by simp)
    | top => rw [Ideal.sqrt_top]; exact le_top
    | coe b =>
      have hab' : a ≤ b := EReal.coe_le_coe_iff.mp hab
      rw [Ideal.sqrt_coe, Ideal.sqrt_coe]
      split_ifs with h1 h2 h2
      · exact le_rfl
      · exact bot_le
      · exact absurd (lt_of_le_of_lt hab' h2) h1
      · exact EReal.coe_le_coe_iff.mpr (Real.sqrt_le_sqrt hab')

/-- `g y = √(max ε (-2 · y))`. -/
def gK (y : EReal) : EReal := Ideal.sqrt (max eps (m2 * y))

theorem gK_antitone : Antitone gK := by
  intro a b hab
  unfold gK
  refine sqrt_mono (max_le_max le_rfl ?_)
  rw [mul_comm m2 b, mul_comm m2 a]
  exact EReal.mul_le_mul_of_nonpos_right hab (by rw [m2_eq]; exact EReal.coe_nonpos.mpr (by norm_num))

theorem gK_top : gK ⊤ = Ideal.sqrt eps := by
  unfold gK
  rw [m2_eq, EReal.coe_mul_top_of_neg (by norm_num), max_eq_left bot_le]

theorem gK_bot : gK ⊥ = ⊤ := by
  unfold gK
  rw [m2_eq, EReal.coe_mul_bot_of_neg (by norm_num), max_eq_right le_top, Ideal.sqrt_top]

/-! ### The four tiles cover the columns -/

theorem exists_col (s : Fin 4096) : ∃ n, n < 4 ∧ ∃ q : Fin 1024, col n q = s := by
  have hs := s.isLt
  refine ⟨s.val / 1024, by omega, ⟨s.val % 1024, Nat.mod_lt _ (by norm_num)⟩, ?_⟩
  apply Fin.ext
  rw [col_val _ (by omega)]
  show 1024 * (s.val / 1024) + s.val % 1024 = s.val
  omega

variable (x : SX.Idx → EReal) (tg : ST.Idx → BitVec 32) (r : Fin 4096)

theorem le_mpos_iff (c : EReal) (n : ℕ) :
    c ≤ mpos x tg r n ↔ c ≤ pinf ∧ ∀ k, k < n → ∀ q : Fin 1024,
      c ≤ (if tg (ix1 r) = tg (ix1 (col k q)) then tK x r (col k q) else pinf) := by
  induction n with
  | zero => simp [mpos]
  | succ n ih =>
    rw [mpos, le_min_iff, ih, bmin, Finset.le_fold_min]
    constructor
    · rintro ⟨⟨h, hk⟩, _, hq⟩
      refine ⟨h, fun k hk' q => ?_⟩
      rcases Nat.lt_succ_iff_lt_or_eq.mp hk' with h' | rfl
      · exact hk k h' q
      · exact hq q (Finset.mem_univ _)
    · rintro ⟨h, hk⟩
      exact ⟨⟨h, fun k hk' => hk k (Nat.lt_succ_of_lt hk')⟩, h, fun q _ => hk n (Nat.lt_succ_self n) q⟩

theorem mneg_le_iff (c : EReal) (n : ℕ) :
    mneg x tg r n ≤ c ↔ ninf ≤ c ∧ ∀ k, k < n → ∀ q : Fin 1024,
      (if tg (ix1 r) = tg (ix1 (col k q)) then ninf else tK x r (col k q)) ≤ c := by
  induction n with
  | zero => simp [mneg]
  | succ n ih =>
    rw [mneg, max_le_iff, ih, bmax, Finset.fold_max_le]
    constructor
    · rintro ⟨⟨h, hk⟩, _, hq⟩
      refine ⟨h, fun k hk' q => ?_⟩
      rcases Nat.lt_succ_iff_lt_or_eq.mp hk' with h' | rfl
      · exact hk k h' q
      · exact hq q (Finset.mem_univ _)
    · rintro ⟨h, hk⟩
      exact ⟨⟨h, fun k hk' => hk k (Nat.lt_succ_of_lt hk')⟩, h, fun q _ => hk n (Nat.lt_succ_self n) q⟩

/-- The running minimum after the four tiles is the minimum over all columns. -/
theorem mpos_four : mpos x tg r 4 = (Finset.univ : Finset (Fin 4096)).fold min pinf
    (fun s => if tg (ix1 r) = tg (ix1 s) then tK x r s else pinf) := by
  refine eq_of_forall_le_iff fun c => ?_
  rw [le_mpos_iff, Finset.le_fold_min]
  constructor
  · rintro ⟨h, hk⟩
    refine ⟨h, fun s _ => ?_⟩
    obtain ⟨n, hn, q, rfl⟩ := exists_col s
    exact hk n hn q
  · rintro ⟨h, hs⟩
    exact ⟨h, fun k _ q => hs (col k q) (Finset.mem_univ _)⟩

/-- The running maximum after the four tiles is the maximum over all columns. -/
theorem mneg_four : mneg x tg r 4 = (Finset.univ : Finset (Fin 4096)).fold max ninf
    (fun s => if tg (ix1 r) = tg (ix1 s) then ninf else tK x r s) := by
  refine eq_of_forall_ge_iff fun c => ?_
  rw [mneg_le_iff, Finset.fold_max_le]
  constructor
  · rintro ⟨h, hk⟩
    refine ⟨h, fun s _ => ?_⟩
    obtain ⟨n, hn, q, rfl⟩ := exists_col s
    exact hk n hn q
  · rintro ⟨h, hs⟩
    exact ⟨h, fun k _ q => hs (col k q) (Finset.mem_univ _)⟩

/-! ### The two arrangements agree -/

/-- The distance to the farthest same-label row: the maximum over the same-label rows of `√(max ε d)`. -/
theorem apK_eq_ref (hx : ∀ i, ∃ a : ℝ, x i = (a : EReal)) :
    apK x tg r = (Finset.univ : Finset (Fin 4096)).fold max ninf
      (fun s => if tg (ix1 r) = tg (ix1 s)
        then Ideal.sqrt (max eps ((sqn x r + sqn x s) - two * dotp x r s)) else ninf) := by
  have hG : ∀ s, gK (tK x r s) = Ideal.sqrt (max eps ((sqn x r + sqn x s) - two * dotp x r s)) := fun s => by
    unfold gK; rw [m2_mul_tK x hx]; rfl
  have key : ∀ s, gK (if tg (ix1 r) = tg (ix1 s) then tK x r s else pinf)
      = if tg (ix1 r) = tg (ix1 s) then Ideal.sqrt (max eps ((sqn x r + sqn x s) - two * dotp x r s))
        else Ideal.sqrt eps := fun s => by
    split_ifs
    · exact hG s
    · rw [pinf_eq, gK_top]
  show gK (mpos x tg r 4) = _
  rw [mpos_four, ← Finset.fold_hom (op := min) (op' := max) (m := gK) (fun a b => gK_antitone.map_min)]
  refine eq_of_forall_ge_iff fun c => ?_
  rw [Finset.fold_max_le, Finset.fold_max_le]
  constructor
  · rintro ⟨_, hs⟩
    refine ⟨by rw [ninf_eq]; exact bot_le, fun s hsm => ?_⟩
    have h := hs s hsm
    rw [key] at h
    split_ifs with hp
    · rwa [if_pos hp] at h
    · rw [ninf_eq]; exact bot_le
  · rintro ⟨_, hs⟩
    have hr : Ideal.sqrt eps ≤ c := by
      have h := hs r (Finset.mem_univ _)
      rw [if_pos rfl] at h
      exact (sqrt_mono (le_max_left _ _)).trans h
    refine ⟨by rw [pinf_eq, gK_top]; exact hr, fun s hsm => ?_⟩
    rw [key]
    split_ifs with hp
    · have h := hs s hsm
      rwa [if_pos hp] at h
    · exact hr

/-- The distance to the nearest other-label row: the minimum over the other-label rows of `√(max ε d)`. -/
theorem anK_eq_ref (hx : ∀ i, ∃ a : ℝ, x i = (a : EReal)) :
    anK x tg r = (Finset.univ : Finset (Fin 4096)).fold min pinf
      (fun s => if tg (ix1 r) = tg (ix1 s) then pinf
        else Ideal.sqrt (max eps ((sqn x r + sqn x s) - two * dotp x r s))) := by
  have hG : ∀ s, gK (tK x r s) = Ideal.sqrt (max eps ((sqn x r + sqn x s) - two * dotp x r s)) := fun s => by
    unfold gK; rw [m2_mul_tK x hx]; rfl
  have h0 : gK ninf = pinf := by rw [ninf_eq, gK_bot, pinf_eq]
  have key : (fun s => gK (if tg (ix1 r) = tg (ix1 s) then ninf else tK x r s))
      = (fun s => if tg (ix1 r) = tg (ix1 s) then pinf
          else Ideal.sqrt (max eps ((sqn x r + sqn x s) - two * dotp x r s))) := funext fun s => by
    split_ifs
    · exact h0
    · exact hG s
  show gK (mneg x tg r 4) = _
  rw [mneg_four, ← Finset.fold_hom (op := max) (op' := min) (m := gK) (fun a b => gK_antitone.map_max), key, h0]

end Cert.Triplet

end
-- ==== Proof.RefStages.lean ====
/-
  The reference computation read entry by entry.

  At the pair of rows `(r, s)` the reference forms `d r s = (‖x_r‖² + ‖x_s‖²) - 2 · (x_r · x_s)`, each squared norm
  summed from zero, the inner product taken against the transposed matrix, then `√(max ε (d r s))`. The labels of the
  two rows are compared; the same-label entries are kept for a maximum along the row (the others replaced by `-∞`),
  the other-label entries for a minimum (the same-label ones replaced by `+∞`). These two row reductions are the
  vectors of the specification.
-/
import proofs.«148254_j88089779241009_2_alg».proof.Proof.Gen.ReferenceIdeal.Read
import proofs.«148254_j88089779241009_2_alg».proof.Proof.RefMath
import Idealize.ShloMosaic.Lib.Affine

noncomputable section

namespace Cert.Triplet.Ref

open Cert.ReferenceIdeal Cert.ReferenceIdeal.Gen Cert.ReferenceIdeal.Read
open Idealize.ShloMosaic Idealize.ShloMosaic.ValueIdx
open scoped BigOperators

/-! ### The composed index maps at a pair of rows -/

theorem idx_sq_row (r s : Fin 4096) (k : Fin 2048) :
    idx_main_v1 (idx_main_v2 (idx_main_v4 (ix2 r s))) k = ix2 r k :=
  funext fun a => Fin.ext (by match a with | ⟨0, _⟩ => rfl | ⟨1, _⟩ => rfl)

theorem idx_sq_col (r s : Fin 4096) (k : Fin 2048) :
    idx_main_v1 (idx_main_v3 (idx_main_v5 (ix2 r s))) k = ix2 s k :=
  funext fun a => Fin.ext (by match a with | ⟨0, _⟩ => rfl | ⟨1, _⟩ => rfl)

theorem idx_dot_left (r s : Fin 4096) (k : Fin 2048) : lidx_main_v8 (ix2 r s) k = ix2 r k :=
  funext fun a => Fin.ext (by match a with | ⟨0, _⟩ => rfl | ⟨1, _⟩ => rfl)

theorem idx_dot_right (r s : Fin 4096) (k : Fin 2048) : idx_main_v7 (ridx_main_v8 (ix2 r s) k) = ix2 s k :=
  funext fun a => Fin.ext (by match a with | ⟨0, _⟩ => rfl | ⟨1, _⟩ => rfl)

theorem idx_label_row (r s : Fin 4096) : idx_main_v14 (idx_main_v16 (ix2 r s)) = ix1 r :=
  funext fun a => Fin.ext (by match a with | ⟨0, _⟩ => rfl)

theorem idx_label_col (r s : Fin 4096) : idx_main_v15 (idx_main_v17 (ix2 r s)) = ix1 s :=
  funext fun a => Fin.ext (by match a with | ⟨0, _⟩ => rfl)

/-! ### The stages at a pair of rows -/

variable (x0 : SX.Idx → EReal) (x1 : ST.Idx → BitVec 32)

/-- The clipped distance of rows `r` and `s`. -/
theorem dist_at (r s : Fin 4096) :
    val_main_v13 (F := Ideal) x0 (ix2 r s)
      = Ideal.sqrt (max eps ((sqn x0 r + sqn x0 s) - two * dotp x0 r s)) := by
  simp only [val_main_v13_apply, val_main_v12_apply, val_main_call0_v1_apply, val_main_call0_v0_apply,
    val_main_cst_1_apply, val_main_v11_apply, val_main_v6_apply, val_main_v4_apply, val_main_v2_apply,
    val_main_v5_apply, val_main_v3_apply, val_main_v1_apply, val_main_v10_apply, val_main_v9_apply,
    val_main_cst_0_apply, val_main_v8_apply, val_main_v0_apply, val_main_v7_apply, val_main_cst_apply,
    idx_sq_row, idx_sq_col, idx_dot_left, idx_dot_right,
    Ideal.hostUnary_sqrt_def, Ideal.maximumf_def, Ideal.subf_def, Ideal.addf_def, Ideal.mulf_def, Ideal.ofBits_def]
  rfl

/-- The label comparison of rows `r` and `s`. -/
theorem same_at (r s : Fin 4096) :
    val_main_v18 (F := Ideal) x1 (ix2 r s) = IntOp.cmpi .eq (x1 (ix1 r)) (x1 (ix1 s)) := by
  simp only [val_main_v18_apply, val_main_v16_apply, val_main_v14_apply, val_main_v17_apply, val_main_v15_apply,
    idx_label_row, idx_label_col]

/-- A selection by a comparison for equality is a case distinction on the equality. -/
theorem select_cmpi_eq {α : Type} (a b : BitVec 32) (A B : α) :
    Scalar.select (IntOp.cmpi .eq a b) A B = if a = b then A else B := by
  unfold Scalar.select
  by_cases h : a = b
  · rw [if_pos h]; exact if_pos (IntOp.cmpi_eq.mpr h)
  · rw [if_neg h]; exact if_neg (fun h' => h (IntOp.cmpi_eq.mp h'))

/-- The same-label entries, the others `-∞`. -/
theorem pos_at (r s : Fin 4096) :
    val_main_v19 (F := Ideal) x0 x1 (ix2 r s)
      = if x1 (ix1 r) = x1 (ix1 s) then Ideal.sqrt (max eps ((sqn x0 r + sqn x0 s) - two * dotp x0 r s)) else ninf := by
  rw [val_main_v19_apply, same_at, dist_at, select_cmpi_eq, val_main_call1_v0_apply, val_main_cst_2_apply]
  rfl

/-- The other-label entries, the same-label ones `+∞`. -/
theorem neg_at (r s : Fin 4096) :
    val_main_v21 (F := Ideal) x0 x1 (ix2 r s)
      = if x1 (ix1 r) = x1 (ix1 s) then pinf else Ideal.sqrt (max eps ((sqn x0 r + sqn x0 s) - two * dotp x0 r s)) := by
  rw [val_main_v21_apply, same_at, dist_at, select_cmpi_eq, val_main_call2_v0_apply, val_main_cst_4_apply]
  rfl

/-! ### The two row reductions -/

theorem reduces_row : S4096x4096.Reduces [1] S4096 := by decide

/-- Row `r` with the column `s` inserted is the pair `(r, s)`. -/
theorem lift_row (r s : Fin 4096) : reduces_row.lift (ix1 r) s = ix2 r s :=
  funext fun a => Fin.ext (by match a with | ⟨0, _⟩ => rfl | ⟨1, _⟩ => rfl)

/-- The row maxima of the same-label distances are the specification's. -/
theorem ap_eq (hx : ∀ i, ∃ a : ℝ, x0 i = (a : EReal)) : val_main_v20 (F := Ideal) x0 x1 = apV x0 x1 := by
  funext j
  obtain ⟨r, rfl⟩ : ∃ r : Fin 4096, j = ix1 r := ⟨j 0, eq_ix1 j⟩
  rw [apV_ix1, apK_eq_ref x0 x1 r hx]
  unfold val_main_v20
  rw [Host.reduce_eq_fold_single (FloatOps.maximumf (F := Ideal) (φ := .f32)) _ _ reducesTo_S4096x4096_S4096_d1
    reduces_row h_S_ (ix1 r)]
  show Finset.fold max ninf (fun s : Fin 4096 => val_main_v19 (F := Ideal) x0 x1 (reduces_row.lift (ix1 r) s))
    Finset.univ = _
  exact Finset.fold_congr fun s _ => by rw [lift_row, pos_at]

/-- The row minima of the other-label distances are the specification's. -/
theorem an_eq (hx : ∀ i, ∃ a : ℝ, x0 i = (a : EReal)) : val_main_v22 (F := Ideal) x0 x1 = anV x0 x1 := by
  funext j
  obtain ⟨r, rfl⟩ : ∃ r : Fin 4096, j = ix1 r := ⟨j 0, eq_ix1 j⟩
  rw [anV_ix1, anK_eq_ref x0 x1 r hx]
  unfold val_main_v22
  rw [Host.reduce_eq_fold_single (FloatOps.minimumf (F := Ideal) (φ := .f32)) _ _ reducesTo_S4096x4096_S4096_d1
    reduces_row h_S_ (ix1 r)]
  show Finset.fold min pinf (fun s : Fin 4096 => val_main_v21 (F := Ideal) x0 x1 (reduces_row.lift (ix1 r) s))
    Finset.univ = _
  exact Finset.fold_congr fun s _ => by rw [lift_row, neg_at]

end Cert.Triplet.Ref

end
-- ==== Proof.RefValue.lean ====
/-
  The reference program's run, stated against the specification: every execution ends with the loss and the
  precision that the common end of the computation gives on the specification's two vectors (the distance to the
  farthest same-label row and to the nearest other-label row), the arguments unchanged. It needs the data matrix
  to have real entries, which is what makes `-2 · (x_r · x_s - ‖x_r‖²/2 - ‖x_s‖²/2)` the squared distance.
-/
import proofs.«148254_j88089779241009_2_alg».proof.Proof.RefStages
import proofs.«148254_j88089779241009_2_alg».proof.Proof.RefTail

noncomputable section

namespace Cert.Triplet.Ref

open Cert.ReferenceIdeal Cert.ReferenceIdeal.Gen Cert.ReferenceIdeal.Read
open Idealize.ShloMosaic Idealize.ShloMosaic.TcCoe Idealize.SL.Sem Idealize.ShloMosaic.StableHlo

/-- The loss is the common end of the computation applied to the two row reductions. -/
theorem loss_eq (x0 : SX.Idx → EReal) (x1 : ST.Idx → BitVec 32) :
    val_main_v29 (F := Ideal) x0 x1 = lossT (val_main_v20 (F := Ideal) x0 x1) (val_main_v22 (F := Ideal) x0 x1) := rfl

/-- The precision likewise. -/
theorem prec_eq (x0 : SX.Idx → EReal) (x1 : ST.Idx → BitVec 32) :
    val_main_v33 (F := Ideal) x0 x1 = precT (val_main_v20 (F := Ideal) x0 x1) (val_main_v22 (F := Ideal) x0 x1) := rfl

/-- From any memory whose data matrix has real entries, every weakly fair execution of the reference terminates
    with the loss and the precision of the specification's two vectors, the arguments unchanged. -/
theorem run_spec (m' : (ℓ : Loc nD τ sig) → Buf (Elt Ideal) ℓ) (ρ' : Dev nD → PrngReg)
    (hfin : ∀ (c : Dev nD) (i : SX.Idx), ∃ a : ℝ, m' ((c.tc : Thread nD τ).loc main_arg0) i = (a : EReal)) :
    θ_run (defs (F := Ideal)) (onTc (τ := τ) (main (F := Ideal))) ⟨m', fun _ => 0, ρ'⟩ fun r => ∀ c : Dev nD,
      r.2.mem ((c.tc : Thread nD τ).loc main_v29)
          = lossT (apV (m' ((c.tc : Thread nD τ).loc main_arg0)) (m' ((c.tc : Thread nD τ).loc main_arg1)))
              (anV (m' ((c.tc : Thread nD τ).loc main_arg0)) (m' ((c.tc : Thread nD τ).loc main_arg1)))
      ∧ r.2.mem ((c.tc : Thread nD τ).loc main_v33)
          = precT (apV (m' ((c.tc : Thread nD τ).loc main_arg0)) (m' ((c.tc : Thread nD τ).loc main_arg1)))
              (anV (m' ((c.tc : Thread nD τ).loc main_arg0)) (m' ((c.tc : Thread nD τ).loc main_arg1)))
      ∧ r.2.mem ((c.tc : Thread nD τ).loc main_arg0) = m' ((c.tc : Thread nD τ).loc main_arg0)
      ∧ r.2.mem ((c.tc : Thread nD τ).loc main_arg1) = m' ((c.tc : Thread nD τ).loc main_arg1) :=
  (θ_run defs _ _).mono (fun _ h c =>
    ⟨(h c).1.trans ((val_main_v29_eq _ _).trans (by rw [loss_eq, ap_eq _ _ (hfin c), an_eq _ _ (hfin c)])),
      (h c).2.1.trans ((val_main_v33_eq _ _).trans (by rw [prec_eq, ap_eq _ _ (hfin c), an_eq _ _ (hfin c)])),
      (h c).2.2.1, (h c).2.2.2⟩)
    (Cert.ReferenceIdeal.Value.run (F := Ideal) m' ρ')

end Cert.Triplet.Ref

end
-- ==== Proof.Finite.lean ====
/-
  Finiteness of the data matrix, read out of the precondition.

  The precondition says that the conjunction, over all entries, of `|x| < +∞` is true. A conjunction over all
  entries that is true is true at each entry; and an extended real whose absolute value `max x (-x)` lies strictly
  below `+∞` is neither `+∞` nor `-∞`, hence a real number.
-/
import proofs.«148254_j88089779241009_2_alg».proof.Pre_finite_inputs
import Idealize.ShloMosaic.PureOps.Ideal.Laws
import Idealize.ShloMosaic.Lib.ReduceAll
import Idealize.ShloMosaic.Lib.ValueIdx

noncomputable section

namespace Cert.Triplet

open Idealize.ShloMosaic

/-- The scalar shape has one index. -/
instance : Subsingleton Cert.Pre_finite_inputs.S_.Idx := ⟨fun _ _ => funext fun d => d.elim0⟩

/-- A truth value printed as a one-bit word is the word one exactly when it is true. -/
theorem ofBool_eq_one {b : Bool} : BitVec.ofBool b = 1#1 ↔ b = true := by cases b <;> decide

/-- An extended real whose absolute value is strictly below `+∞` is a real. -/
theorem real_of_abs_lt_top (y : EReal) (h : max y (-y) < ⊤) : ∃ a : ℝ, y = (a : EReal) := by
  induction y using EReal.rec with
  | bot => simp at h
  | top => simp at h
  | coe a => exact ⟨a, rfl⟩

/-- If the finiteness predicate of the two arrays is all ones, every entry of the matrix is a real. -/
theorem finite_of_pre [Cert.Pre_finite_inputs.Facts]
    (x : FVec Ideal Cert.Pre_finite_inputs.S4096x2048 .f32) (tg : IVec Cert.Pre_finite_inputs.S4096 32)
    (h : Cert.Pre_finite_inputs.fn (F := Ideal) x tg = fun _ => 1#1) :
    ∀ i, ∃ a : ℝ, x i = (a : EReal) := by
  intro i
  have h0 := congrFun h ValueIdx.ix0
  dsimp only [Cert.Pre_finite_inputs.fn] at h0
  have hi := Host.reduce_andi_all _ _ _ _ _ h0 i
  have hc : Ideal.cmp .olt (max (x i) (-(x i))) (Ideal.ofBits .f32 0x7F800000#32) = 1#1 := hi
  have htop : Ideal.ofBits .f32 0x7F800000#32 = (⊤ : EReal) := by simp [Ideal.ofBits, Ideal.ieee]
  rw [htop] at hc
  have hb : BitVec.ofBool (decide (max (x i) (-(x i)) < ⊤)) = 1#1 := hc
  exact real_of_abs_lt_top (x i) (of_decide_eq_true (ofBool_eq_one.mp hb))

end Cert.Triplet

end
-- ==== Proof.Assembly.lean ====
/-
  The claims about the reference, and the algebraic claim from the kernel's run.

  Both programs end with the same function of the same two vectors: the distance of every row to its farthest
  same-label row and to its nearest other-label row. The kernel's run gives the loss and the precision as that
  function of the two vectors of its own arguments; the reference's run gives the same of its arguments, provided
  the data matrix has real entries, which the precondition on the kernel's memory says and the agreement of the two
  memories on the arguments carries over. So the two pairs of results are equal.
-/
import proofs.«148254_j88089779241009_2_alg».proof.Defs
import proofs.«148254_j88089779241009_2_alg».proof.Proof.RefValue
import proofs.«148254_j88089779241009_2_alg».proof.Proof.Finite
import proofs.«148254_j88089779241009_2_alg».proof.Proof.RefTail
import proofs.«148254_j88089779241009_2_alg».proof.Proof.Gen.KernelIdeal
import proofs.«148254_j88089779241009_2_alg».proof.Proof.Gen.ReferenceIdeal.Run
import proofs.«148254_j88089779241009_2_alg».proof.Proof.Gen.Pre_finite_inputs

noncomputable section

open Idealize.ShloMosaic Idealize.ShloMosaic.TcCoe Idealize.SL.Sem

namespace Cert.Proof.Assembly

open Cert.Triplet

/-- The reference runs and leaves its two argument arrays unchanged: its run with the results dropped. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2.2) (Cert.ReferenceIdeal.Value.run (F := Ideal) m ρ)

/-- No operation was rewritten between the kernel and its reading over the extended reals. -/
theorem preserves : Cert.preserves_Kernel_KernelIdeal := trivial

/-- If the kernel's run ends with the loss and the precision of the specification's two vectors of its arguments
    (the arguments unchanged), the kernel and the reference end with equal results from memories that agree on the
    arguments, under the finiteness precondition. -/
theorem algebraic_of
    (hK : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (fun r => ∀ c : Dev Cert.KernelIdeal.nD,
          r.2.mem ((c.tc : Thread Cert.KernelIdeal.nD Cert.KernelIdeal.τ).loc Cert.KernelIdeal.main_v18)
            = lossT (apV (m ((c.tc : Thread Cert.KernelIdeal.nD Cert.KernelIdeal.τ).loc Cert.KernelIdeal.main_arg0))
                  (m ((c.tc : Thread Cert.KernelIdeal.nD Cert.KernelIdeal.τ).loc Cert.KernelIdeal.main_arg1)))
                (anV (m ((c.tc : Thread Cert.KernelIdeal.nD Cert.KernelIdeal.τ).loc Cert.KernelIdeal.main_arg0))
                  (m ((c.tc : Thread Cert.KernelIdeal.nD Cert.KernelIdeal.τ).loc Cert.KernelIdeal.main_arg1)))
          ∧ r.2.mem ((c.tc : Thread Cert.KernelIdeal.nD Cert.KernelIdeal.τ).loc Cert.KernelIdeal.main_v22)
            = precT (apV (m ((c.tc : Thread Cert.KernelIdeal.nD Cert.KernelIdeal.τ).loc Cert.KernelIdeal.main_arg0))
                  (m ((c.tc : Thread Cert.KernelIdeal.nD Cert.KernelIdeal.τ).loc Cert.KernelIdeal.main_arg1)))
                (anV (m ((c.tc : Thread Cert.KernelIdeal.nD Cert.KernelIdeal.τ).loc Cert.KernelIdeal.main_arg0))
                  (m ((c.tc : Thread Cert.KernelIdeal.nD Cert.KernelIdeal.τ).loc Cert.KernelIdeal.main_arg1)))
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  have hfin : ∀ (c : Dev Cert.ReferenceIdeal.nD) (i : SX.Idx), ∃ a : ℝ,
      m' ((c.tc : Thread Cert.ReferenceIdeal.nD Cert.ReferenceIdeal.τ).loc Cert.ReferenceIdeal.main_arg0) i = (a : EReal) := by
    intro c
    rw [(hagree c).1]
    exact @finite_of_pre Cert.Pre_finite_inputs.Gen.facts _ _ (hpre c)
  refine ⟨fun c => lossT
      (apV (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (anV (m ((c.tc : Thread Cert.KernelIdeal.nD Cert.KernelIdeal.τ).loc Cert.KernelIdeal.main_arg0))
        (m ((c.tc : Thread Cert.KernelIdeal.nD Cert.KernelIdeal.τ).loc Cert.KernelIdeal.main_arg1))),
    fun c => precT
      (apV (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (anV (m ((c.tc : Thread Cert.KernelIdeal.nD Cert.KernelIdeal.τ).loc Cert.KernelIdeal.main_arg0))
        (m ((c.tc : Thread Cert.KernelIdeal.nD Cert.KernelIdeal.τ).loc Cert.KernelIdeal.main_arg1))),
    hK m ρ, ?_⟩
  refine (θ_run Cert.ReferenceIdeal.defs _ _).mono (fun _ h c => ⟨?_, ?_, (h c).2.2.1, (h c).2.2.2⟩)
    (Cert.Triplet.Ref.run_spec m' ρ' hfin)
  · rw [(h c).1, (hagree c).1, (hagree c).2]
  · rw [(h c).2.1, (hagree c).1, (hagree c).2]

end Cert.Proof.Assembly

end
-- ==== Proof.lean ====
/- The proof of `Cert.Claim`: a triplet loss with hard mining over 4096 rows of 2048 entries.

   The kernel tiles the 4096 x 4096 matrix of pairwise quantities t r s = x_r . x_s - |x_r|^2 / 2 - |x_s|^2 / 2 (so that
   the squared distance of rows r and s is -2 t r s) into 4 x 4 tiles of 1024 x 1024, keeps per row the minimum of t over
   the same-label columns and the maximum over the other-label columns across the four column tiles, and ends with
   sqrt (max eps (-2 m)) of each; the reference forms every distance sqrt (max eps (|x_r|^2 + |x_s|^2 - 2 x_r . x_s)) and
   takes the maximum over the same-label columns and the minimum over the others. On finite inputs the two agree over the
   extended reals: -2 t r s is the squared distance, y |-> sqrt (max eps (-2 y)) is antitone so it turns the minimum of t
   into the maximum of the distances and the maximum into the minimum, the four column tiles cover the columns, and the
   diagonal is always a same-label column, so the masked entries (which the kernel counts as +inf in t, that is as
   sqrt eps in distance, and the reference as -inf) never decide the maximum. Both programs then apply the same mean
   margin loss and precision to the two distance vectors.

   The three frames: the reference's is its generated run; the kernel's two (at the word level and at the extended
   reals) are one proof, generic in the float instance: the body's three control cases (first, middle, last column
   tile) run with the two scratch buffers carried between grid points, and the launch with the one matrix buffer that
   two input windows read dealt to them in halves. `preserves` has no conjunct (the ideal pass rewrote nothing). -/
import proofs.«148254_j88089779241009_2_alg».proof.Defs
import proofs.«148254_j88089779241009_2_alg».proof.Proof.Gen.Kernel
import proofs.«148254_j88089779241009_2_alg».proof.Proof.Gen.Kernel.Skeleton
import proofs.«148254_j88089779241009_2_alg».proof.Proof.Gen.Kernel.Launch
import proofs.«148254_j88089779241009_2_alg».proof.Proof.Gen.Kernel.Points
import proofs.«148254_j88089779241009_2_alg».proof.Proof.Gen.KernelIdeal
import proofs.«148254_j88089779241009_2_alg».proof.Proof.Gen.KernelIdeal.Skeleton
import proofs.«148254_j88089779241009_2_alg».proof.Proof.Gen.KernelIdeal.Launch
import proofs.«148254_j88089779241009_2_alg».proof.Proof.Gen.KernelIdeal.Points
import proofs.«148254_j88089779241009_2_alg».proof.Proof.Gen.ReferenceIdeal
import proofs.«148254_j88089779241009_2_alg».proof.Proof.Gen.Pre_finite_inputs
import proofs.«148254_j88089779241009_2_alg».proof.Proof.Gen.ReferenceIdeal.Read
import proofs.«148254_j88089779241009_2_alg».proof.Proof.K.Frame
import proofs.«148254_j88089779241009_2_alg».proof.Proof.KI.Final
import proofs.«148254_j88089779241009_2_alg».proof.Proof.Assembly
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.GenH.frame (F := Bits) m ρ,
    fun m ρ _ => Cert.KernelIdeal.GenH.frame (F := Ideal) m ρ,
    Cert.Proof.Assembly.frame_ri,
    Cert.Proof.Assembly.preserves,
    Cert.Proof.Assembly.algebraic_of (fun m ρ => Cert.KernelIdeal.GenH.run_value m ρ)⟩

end Cert.Proof

end
